-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 10
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S1x4096, .f32⟩
  | .hbm, ⟨7, _⟩ => ⟨S4096x4096, .bf16⟩
  | .hbm, ⟨8, _⟩ => ⟨S8192x4096, .f32⟩
  | .hbm, ⟨9, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .f32⟩
  | .local _ .vmem, ⟨9, _⟩ => ⟨S1024x512, .f32⟩
  | .local _ .vmem, ⟨10, _⟩ => ⟨S2048x512, .bf16⟩
  | .local _ .vmem, ⟨11, _⟩ => ⟨S2048x512, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  shapeCasts_S4096_S1x4096 : S4096.ShapeCasts S1x4096
  inb_S1024x16_S1024x16_0_0 : ∀ a, (![0, 0] : Fin 2 → Nat) a + S1024x16.size a ≤ S1024x16.size a
  h_S1024x16 : 0 < S1024x16.numel
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x16_S16x1024_S1024x1024_1_0_0_1_n_n_wf : DotDims.WF S1024x16 S16x1024 S1024x1024 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.HandKernel.Region0.lean ====
/-
  The weight-merge kernel (the first of the program's two kernel regions), at any float instance.

  The grid is 4 × 4; at point (i, j) the kernel is handed block (i, j) of the dense weight (1024 × 1024), block (i, 0) of
  the update's left factor (1024 × 16) and block (0, j) of its right factor (16 × 1024), and stores, over the whole
  1024 × 1024 block (i, j) of its result, the weight block plus the product of the two factor blocks, narrowed to bf16.
  Stated here for ANY contents `V` of the core's buffers when the region is entered:
  * `iblk0`: a window's block at a grid point, read off its array;
  * `out0_3`: what the body leaves in the result's staging buffer, as ONE function of the three input blocks (the body's
    one store, which covers the buffer);
  * `sound_kernel0`: the body, run on whole staging buffers holding the input blocks, ends with the inputs as they were
    and the result buffer at `out0_3` of them;
  * `dat0`: the region's data — each input buffer keeps its block, the result buffer holds `out0_3` of the point's
    blocks — and `body_obligation0`: the body meets it at every grid point.
-/
import proofs.«141827_j21225728377224_2_alg».proof.Proof.Gen.Kernel.Launch
import proofs.«141827_j21225728377224_2_alg».proof.Proof.Gen.Kernel.Skeleton
import proofs.«141827_j21225728377224_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the index
    has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_w : Rect S1024x1024 := Rect.unit (s := S1024x1024) ![0, 0] S1024x1024.size inb_S1024x1024_S1024x1024_0_0
abbrev r0_a : Rect S1024x16 := Rect.unit (s := S1024x16) ![0, 0] S1024x16.size inb_S1024x16_S1024x16_0_0
abbrev r0_b : Rect S16x1024 := Rect.unit (s := S16x1024) ![0, 0] S16x1024.size inb_S16x1024_S16x1024_0_0

/-! ## What the body leaves in the result's staging buffer -/

/-- The result's staging buffer after the body, from the three input blocks: the body's one store, over the whole block. -/
def out0_3 (x0 : Vec F S1024x1024 .f32) (x1 : Vec F S1024x16 .f32) (x2 : Vec F S16x1024 .f32) : Vec F S1024x1024 .bf16 :=
  View.canon [⟨r0_w, k0_pay1 (View.ld x1 r0_a) (View.ld x2 r0_b) (View.ld x0 r0_w)⟩]

/-- The one store covers the buffer. -/
theorem cover0_3 (p0 : Vec F S1024x1024 .bf16) (y : S1024x1024.Idx) :
    ∃ pc ∈ ([⟨r0_w, p0⟩] : List (View.Piece (Elt F) S1024x1024 .bf16)), y ∈ pc.1.set :=
  View.cover_of_tiled [⟨r0_w, p0⟩] S1024x1024.size (by rfl) y

/-! ## The body's triple -/

set_option maxHeartbeats 1000000 in
/-- The body on whole staging buffers, the inputs' at contents `x0`, `x1`, `x2` and the result's at anything, runs to the
    continuation holding the inputs' as they were and the result's at `out0_3` of them. -/
theorem sound_kernel0 (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__combine_kernel i arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's data -/

/-- The region's data on core `c`: the arrays as the region finds them; after the body at point `t` each input's buffer
    at its block and the result's at `out0_3` of the point's blocks; the invariant is the scoped buffers no window stages
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.HandKernel.Runs1.lean ====
/-
  The K-blocked matmul kernel (the second kernel region), at any float instance: what its runs share, and the body run
  once in each of the three cases of its two conditionals.

  The grid is 8 × 2 × 8, the last axis running over the 8 blocks of the contracted axis. At point (a, b, k) the kernel is
  handed block (a, k) of the activations (1024 × 512), block (b, k) of the merged weight (2048 × 512), block (0, b) of the
  bias row (1 × 2048), the staging buffer of block (a, b) of the result (1024 × 2048), and a scratch accumulator of the
  same shape that it keeps from point to point. The body: if k = 0 it stores zeros over the accumulator; it then stores
  accumulator + activations · weightᵀ over the accumulator; if k = 7 it stores accumulator + bias row over the result
  block. So there are three cases: A (k = 0), B (0 < k < 7), C (k = 7). The conditions, as the kernel computes them from
  the grid coordinates, are decided over the 128 points in closed form (`t % 8 = 0`, `t % 8 = 7`); the result window is
  idle, and not written back, wherever k ≠ 7.

  Each case's run states: on whole staging buffers holding the inputs' contents, the result buffer untouched (cases A, B)
  or at anything (case C), the accumulator at anything (case A) or at what the point before left (cases B, C), the body
  runs to the continuation with the inputs as they were and each stored buffer holding its stores as pieces, last first.
-/
import proofs.«141827_j21225728377224_2_alg».proof.Proof.Gen.Kernel.Launch
import proofs.«141827_j21225728377224_2_alg».proof.Proof.Gen.Kernel.Skeleton
import proofs.«141827_j21225728377224_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the index
    has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first block of the contracted axis" (k = 0), as the kernel computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of the contracted axis" (k = 7), as the kernel computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 7 the body stores nothing into the result window, and the pipeline does not write its block back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 7 it stores into it. -/
theorem liveAt1_3 : ∀ t : Fin cfg1.N, cond1_1 (grid1.coords t) → cfg1.idle 3 (grid1.coords t) = false := by decide +kernel

/-! ## The staging and scratch memrefs -/

/-- One staging buffer of the result window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x2048 .f32 := Memref.whole cc1_scratch0
abbrev VS1 : View sig .tc .vmem S1024x2048 .f32 := scM1.view

/-! ## The body in each case -/

set_option maxHeartbeats 2000000 in
/-- Case A (k = 0). The accumulator is at anything; the result buffer is handed back untouched. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- Case B (0 < k < 7). The accumulator is at what the point before left, `xs`; the result buffer is handed back untouched. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs : Vec F S1024x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- Case C (k = 7). The accumulator is at what the point before left, `xs`; the result buffer is at anything and ends with
    its store written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.HandKernel.Region1.lean ====
/-
  The K-blocked matmul kernel, point by point, at any float instance.

  `outsAt1` says what the result's staging buffer and the accumulator hold after the body at the n-th grid point, by
  recursion on n: at a point of case A (k = 0) the accumulator is that case's stores, whatever it held before; at a point
  of case B or C the case's stores over what the point before left in the accumulator; the result buffer is case C's
  store at the points with k = 7 and is not consulted elsewhere. The region's invariant `PhiS1` carries the accumulator
  from point to point at exactly these contents (before the first point: at anything), beside the other scoped buffers
  and the generator register, which the body never touches. `dat1` is the region's data over them and
  `body_obligation1` says the body meets it at every grid point; `hin1` / `hout1` say the invariant starts as, and ends
  within, "every scoped buffer no window stages at anything, the generator register at some state".
-/
import proofs.«141827_j21225728377224_2_alg».proof.Proof.HandKernel.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each case at a grid point -/

/-- Case A's run at point `t`, on the point's staging buffers and input blocks. -/
abbrev runA (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)
/-- Case B's run at point `t`, over accumulator contents `xs`. -/
abbrev runB (c : Dev nD) (t : Fin cfg1.N) (h0 : ¬t.val % 8 = 0) (h1 : ¬t.val % 8 = 7) (xs : Vec F S1024x2048 .f32) :=
  kernelRun1_B (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs
/-- Case C's run at point `t`, over accumulator contents `xs`. -/
abbrev runC (c : Dev nD) (t : Fin cfg1.N) (h0 : ¬t.val % 8 = 0) (h1 : t.val % 8 = 7) (xs : Vec F S1024x2048 .f32) :=
  kernelRun1_C (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs

/-- What a list of stores leaves in the accumulator / in the result's staging buffer: the stores read back. -/
abbrev accOf (L : List (View.Piece (Elt F) S1024x2048 .f32)) : Vec F S1024x2048 .f32 :=
  VS1.read (Elt F) (VS1.writes (Elt F) VS1.junk L)
abbrev resOf (L : List (View.Piece (Elt F) S1024x2048 .f32)) : Vec F S1024x2048 .f32 :=
  VO1_3.read (Elt F) (VO1_3.writes (Elt F) VO1_3.junk L)

/-- In each case the accumulator's stores cover it, and in case C so does the result buffer's store. -/
theorem scoverA (c : Dev nD) (t : Fin cfg1.N) (h0 : t.val % 8 = 0) (h1 : ¬t.val % 8 = 7) (y : S1024x2048.Idx) :
    ∃ pc ∈ (runA V c t h0 h1).2.1, y ∈ pc.1.set :=
  View.cover_of_tiledL (runA V c t h0 h1).2.1 S1024x2048.size (by sl_kernel_rfl) y
theorem scoverB (c : Dev nD) (t : Fin cfg1.N) (h0 : ¬t.val % 8 = 0) (h1 : ¬t.val % 8 = 7) (xs : Vec F S1024x2048 .f32) (y : S1024x2048.Idx) :
    ∃ pc ∈ (runB V c t h0 h1 xs).2.1, y ∈ pc.1.set :=
  View.cover_of_tiledL (runB V c t h0 h1 xs).2.1 S1024x2048.size (by sl_kernel_rfl) y
theorem scoverC (c : Dev nD) (t : Fin cfg1.N) (h0 : ¬t.val % 8 = 0) (h1 : t.val % 8 = 7) (xs : Vec F S1024x2048 .f32) (y : S1024x2048.Idx) :
    ∃ pc ∈ (runC V c t h0 h1 xs).2.1, y ∈ pc.1.set :=
  View.cover_of_tiledL (runC V c t h0 h1 xs).2.1 S1024x2048.size (by sl_kernel_rfl) y
theorem coverC (c : Dev nD) (t : Fin cfg1.N) (h0 : ¬t.val % 8 = 0) (h1 : t.val % 8 = 7) (xs : Vec F S1024x2048 .f32) (y : S1024x2048.Idx) :
    ∃ pc ∈ (runC V c t h0 h1 xs).1, y ∈ pc.1.set :=
  View.cover_of_tiledL (runC V c t h0 h1 xs).1 S1024x2048.size (by sl_kernel_rfl) y

/-! ## What the result buffer and the accumulator hold after each point -/

/-- After the body at position `n`: (the result's staging buffer, the accumulator). -/
def outsAt1 (c : Dev nD) : (n : ℕ) → n < cfg1.N → Vec F S1024x2048 .f32 × Vec F S1024x2048 .f32
  | 0, hn => (resOf (runA V c ⟨0, hn⟩ (Nat.zero_mod _) (by show ¬0 % 8 = 7; decide)).1, accOf (runA V c ⟨0, hn⟩ (Nat.zero_mod _) (by show ¬0 % 8 = 7; decide)).2.1)
  | n + 1, hn =>
    if h0 : (n + 1) % 8 = 0 then
      if h1 : (n + 1) % 8 = 7 then
        False.elim (by omega)
      else
        (resOf (runA V c ⟨n + 1, hn⟩ h0 h1).1, accOf (runA V c ⟨n + 1, hn⟩ h0 h1).2.1)
    else
      if h1 : (n + 1) % 8 = 7 then
        (resOf (runC V c ⟨n + 1, hn⟩ h0 h1 (outsAt1 c n (Nat.lt_of_succ_lt hn)).2).1, accOf (runC V c ⟨n + 1, hn⟩ h0 h1 (outsAt1 c n (Nat.lt_of_succ_lt hn)).2).2.1)
      else
        (resOf (runB V c ⟨n + 1, hn⟩ h0 h1 (outsAt1 c n (Nat.lt_of_succ_lt hn)).2).1, accOf (runB V c ⟨n + 1, hn⟩ h0 h1 (outsAt1 c n (Nat.lt_of_succ_lt hn)).2).2.1)

/-- What the point before `t` left in the accumulator. -/
abbrev prevAcc (c : Dev nD) (t : Fin cfg1.N) : Vec F S1024x2048 .f32 :=
  (outsAt1 V c (t.val - 1) (Nat.lt_of_le_of_lt (Nat.sub_le _ _) t.isLt)).2

theorem outsAt1_A (c : Dev nD) (t : Fin cfg1.N) (h0 : t.val % 8 = 0) (h1 : ¬t.val % 8 = 7) :
    outsAt1 V c t.val t.isLt = (resOf (runA V c t h0 h1).1, accOf (runA V c t h0 h1).2.1) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (resOf (runB V c t h0 h1 (prevAcc V c t)).1, accOf (runB V c t h0 h1 (prevAcc V c t)).2.1) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (resOf (runC V c t h0 h1 (prevAcc V c t)).1, accOf (runC V c t h0 h1 (prevAcc V c t)).2.1) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers no window of this region stages other than the accumulator — the first region's staging buffers —
    each whole at anything, beside `S`. -/
def othersWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- "Every scoped buffer no window stages at anything, the generator register at some state", with the accumulator named. -/
theorem PhiA1_eq (c : Dev nD) :
    (Pipeline.ΦA spec1 c : sProp 𝕄)
      = iprop(othersWith c (iprop(∃ d, owns (c : Thread nD τ) scM1 fullShare d)) ∗ (∃ r, prngReg c r)) := by
  unfold Pipeline.ΦA othersWith; rw [scopedRest1_eq]; simp only [scM1, owns_whole]; try rfl

/-- The invariant before position `n`: before the first point every scoped buffer at anything; afterwards the accumulator
    at what the point before left in it. -/
def PhiS1 (c : Dev nD) : (n : ℕ) → n ≤ cfg1.N → sProp 𝕄
  | 0, _ => Pipeline.ΦA spec1 c
  | n + 1, hn => iprop(othersWith c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(othersWith c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(othersWith c (owns (c : Thread nD τ) scM1 fullShare ((outsAt1 V c (n - 1) (by omega)).2)) ∗ (∃ r, prngReg c r)) := by
  cases n with
  | zero => exact absurd rfl hz
  | succ n => rfl

/-! ## The region's data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    (try dsimp only)
    by_cases hz : t.val = 0
    · rw [PhiS1_castSucc V c t, PhiS1_zero V c _ _ hz, PhiA1_eq]
      unfold othersWith
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hb0 Hb1 Hb2 Hb3 Hb4 Hb5 Hb6 Hb7 HS Hg]
      · isplitl [Hb0 Hb1 Hb2 Hb3 Hb4 Hb5 Hb6 Hb7 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      unfold othersWith
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hb0 Hb1 Hb2 Hb3 Hb4 Hb5 Hb6 Hb7 HS Hg]
      · isplitl [Hb0 Hb1 Hb2 Hb3 Hb4 Hb5 Hb6 Hb7 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    rw [PhiS1_castSucc V c t, PhiS1_pos V c _ _ hz]
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      (try dsimp only)
      unfold othersWith
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hb0 Hb1 Hb2 Hb3 Hb4 Hb5 Hb6 Hb7 HS Hg]
      · isplitl [Hb0 Hb1 Hb2 Hb3 Hb4 Hb5 Hb6 Hb7 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC V c t h0 h1 _)
    · rw [Dat.leavesExact_idle (dat1 V c) 3 t (idleAt1_3 t (fun h => h1 ((hcond1_1 t).mp h))) (noFlush1_3 t (fun h => h1 ((hcond1_1 t).mp h)))]
      rw [outsAt1_B V c t h0 h1]
      (try dsimp only)
      unfold othersWith
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hb0 Hb1 Hb2 Hb3 Hb4 Hb5 Hb6 Hb7 HS Hg]
      · isplitl [Hb0 Hb1 Hb2 Hb3 Hb4 Hb5 Hb6 Hb7 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold othersWith
  iintro ⟨⟨Hb0, Hb1, Hb2, Hb3, Hb4, Hb5, Hb6, Hb7, HS⟩, Hg⟩
  isplitl [Hb0 Hb1 Hb2 Hb3 Hb4 Hb5 Hb6 Hb7 HS]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    iexists _; iexact HS
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.HandKernel.Run.lean ====
/-
  The whole program's run, at any float instance: @main is a stretch of two host reshapes, the weight-merge region, the
  matmul region, and one host reshape.

  The contents of the core's unscoped buffers at each boundary are a fold from the launch memory: `W1` after the first
  stretch; `W2` after the merge region (its result array at what its write-backs leave, every other buffer as entered);
  `W3` after the matmul region (likewise); `W4` after the last reshape. Each region is entered from "every unscoped
  buffer at the boundary's contents, the generator register at some state, nothing owed" and left at the same with the
  next boundary's contents: its arrays are split out of the unscoped buffers at entry and put back at exit, the
  generator register goes into its invariant and comes back, and for the matmul region the accumulator is handed in
  with the other scoped buffers and handed back with its contents forgotten.
  `run`: every weakly fair execution from any memory with zero counters terminates, and in every final state every
  unscoped buffer holds `W4`. `W4_main_argK`: each argument array reads back through the fold to its launch contents.
  `frame` is the frame claim, and `W4_main_v4` names the result as the last reshape of the matmul region's result array.
-/
import proofs.«141827_j21225728377224_2_alg».proof.Proof.HandKernel.Region0
import proofs.«141827_j21225728377224_2_alg».proof.Proof.HandKernel.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the merge region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the matmul region: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The merge region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch leaves the last thread state beside the core owing nothing. -/
theorem last_chain (c : Dev nD) :
    (iprop(StableHlo.held (c : Thread nD τ) (Pipeline.ucRefs τ sig) (W4 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer of every core at `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W1_keep (c : Dev nD) (b : Ref sig .tc) (h : b ∉ ([main_v0, main_v1] : List (Ref sig .tc))) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne (fun e => h (e ▸ List.mem_cons_self)),
      StableHlo.devRef_ne_of_ne (fun e => h (e ▸ List.mem_cons_of_mem _ List.mem_cons_self))⟩))
theorem W4_keep (c : Dev nD) (b : Ref sig .tc) (h : b ≠ main_v4) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

/-- `main_arg0` (the activations) is no window's array of either region and no host stretch writes it. -/
theorem W4_main_arg0 (c : Dev nD) : W4 m ρ c (Proc.devRef .tc main_arg0) = m ((c : Thread nD τ).loc main_arg0) :=
  (W4_keep m ρ c main_arg0 (by decide)).trans <| (W3_of_ne m ρ c main_arg0 (by decide)).trans <|
    (W2_of_ne m ρ c main_arg0 (by decide)).trans <| W1_keep m ρ c main_arg0 (by decide)
/-- `main_arg2` (the bias) likewise. -/
theorem W4_main_arg2 (c : Dev nD) : W4 m ρ c (Proc.devRef .tc main_arg2) = m ((c : Thread nD τ).loc main_arg2) :=
  (W4_keep m ρ c main_arg2 (by decide)).trans <| (W3_of_ne m ρ c main_arg2 (by decide)).trans <|
    (W2_of_ne m ρ c main_arg2 (by decide)).trans <| W1_keep m ρ c main_arg2 (by decide)
/-- `main_arg1` (the dense weight) is the merge region's input window 0: an input's array is left as entered. -/
theorem W4_main_arg1 (c : Dev nD) : W4 m ρ c (Proc.devRef .tc main_arg1) = m ((c : Thread nD τ).loc main_arg1) :=
  (W4_keep m ρ c main_arg1 (by decide)).trans <| (W3_of_ne m ρ c main_arg1 (by decide)).trans <|
    ((W2_arr m ρ c 0).trans (((dat0 (V1 m ρ) c).arrAt_in 0 rfl _).trans (A_eq0 (V1 m ρ) c 0))).trans <| W1_keep m ρ c main_arg1 (by decide)
theorem W4_main_arg3 (c : Dev nD) : W4 m ρ c (Proc.devRef .tc main_arg3) = m ((c : Thread nD τ).loc main_arg3) :=
  (W4_keep m ρ c main_arg3 (by decide)).trans <| (W3_of_ne m ρ c main_arg3 (by decide)).trans <|
    ((W2_arr m ρ c 1).trans (((dat0 (V1 m ρ) c).arrAt_in 1 rfl _).trans (A_eq0 (V1 m ρ) c 1))).trans <| W1_keep m ρ c main_arg3 (by decide)
theorem W4_main_arg4 (c : Dev nD) : W4 m ρ c (Proc.devRef .tc main_arg4) = m ((c : Thread nD τ).loc main_arg4) :=
  (W4_keep m ρ c main_arg4 (by decide)).trans <| (W3_of_ne m ρ c main_arg4 (by decide)).trans <|
    ((W2_arr m ρ c 2).trans (((dat0 (V1 m ρ) c).arrAt_in 2 rfl _).trans (A_eq0 (V1 m ρ) c 2))).trans <| W1_keep m ρ c main_arg4 (by decide)

/-- THE FRAME: every execution terminates, nothing faulting, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run m ρ)

end Cert.Kernel.Hand

end
-- ==== Proof.HandKernelIdeal.Region0.lean ====
/-
  The weight-merge kernel (the first of the program's two kernel regions), at any float instance.

  The grid is 4 × 4; at point (i, j) the kernel is handed block (i, j) of the dense weight (1024 × 1024), block (i, 0) of
  the update's left factor (1024 × 16) and block (0, j) of its right factor (16 × 1024), and stores, over the whole
  1024 × 1024 block (i, j) of its result, the weight block plus the product of the two factor blocks, narrowed to bf16.
  Stated here for ANY contents `V` of the core's buffers when the region is entered:
  * `iblk0`: a window's block at a grid point, read off its array;
  * `out0_3`: what the body leaves in the result's staging buffer, as ONE function of the three input blocks (the body's
    one store, which covers the buffer);
  * `sound_kernel0`: the body, run on whole staging buffers holding the input blocks, ends with the inputs as they were
    and the result buffer at `out0_3` of them;
  * `dat0`: the region's data — each input buffer keeps its block, the result buffer holds `out0_3` of the point's
    blocks — and `body_obligation0`: the body meets it at every grid point.
-/
import proofs.«141827_j21225728377224_2_alg».proof.Proof.Gen.KernelIdeal.Launch
import proofs.«141827_j21225728377224_2_alg».proof.Proof.Gen.KernelIdeal.Skeleton
import proofs.«141827_j21225728377224_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the index
    has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_w : Rect S1024x1024 := Rect.unit (s := S1024x1024) ![0, 0] S1024x1024.size inb_S1024x1024_S1024x1024_0_0
abbrev r0_a : Rect S1024x16 := Rect.unit (s := S1024x16) ![0, 0] S1024x16.size inb_S1024x16_S1024x16_0_0
abbrev r0_b : Rect S16x1024 := Rect.unit (s := S16x1024) ![0, 0] S16x1024.size inb_S16x1024_S16x1024_0_0

/-! ## What the body leaves in the result's staging buffer -/

/-- The result's staging buffer after the body, from the three input blocks: the body's one store, over the whole block. -/
def out0_3 (x0 : Vec F S1024x1024 .f32) (x1 : Vec F S1024x16 .f32) (x2 : Vec F S16x1024 .f32) : Vec F S1024x1024 .bf16 :=
  View.canon [⟨r0_w, k0_pay1 (View.ld x1 r0_a) (View.ld x2 r0_b) (View.ld x0 r0_w)⟩]

/-- The one store covers the buffer. -/
theorem cover0_3 (p0 : Vec F S1024x1024 .bf16) (y : S1024x1024.Idx) :
    ∃ pc ∈ ([⟨r0_w, p0⟩] : List (View.Piece (Elt F) S1024x1024 .bf16)), y ∈ pc.1.set :=
  View.cover_of_tiled [⟨r0_w, p0⟩] S1024x1024.size (by rfl) y

/-! ## The body's triple -/

set_option maxHeartbeats 1000000 in
/-- The body on whole staging buffers, the inputs' at contents `x0`, `x1`, `x2` and the result's at anything, runs to the
    continuation holding the inputs' as they were and the result's at `out0_3` of them. -/
theorem sound_kernel0 (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__combine_kernel i arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's data -/

/-- The region's data on core `c`: the arrays as the region finds them; after the body at point `t` each input's buffer
    at its block and the result's at `out0_3` of the point's blocks; the invariant is the scoped buffers no window stages
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.HandKernelIdeal.Runs1.lean ====
/-
  The K-blocked matmul kernel (the second kernel region), at any float instance: what its runs share, and the body run
  once in each of the three cases of its two conditionals.

  The grid is 8 × 2 × 8, the last axis running over the 8 blocks of the contracted axis. At point (a, b, k) the kernel is
  handed block (a, k) of the activations (1024 × 512), block (b, k) of the merged weight (2048 × 512), block (0, b) of the
  bias row (1 × 2048), the staging buffer of block (a, b) of the result (1024 × 2048), and a scratch accumulator of the
  same shape that it keeps from point to point. The body: if k = 0 it stores zeros over the accumulator; it then stores
  accumulator + activations · weightᵀ over the accumulator; if k = 7 it stores accumulator + bias row over the result
  block. So there are three cases: A (k = 0), B (0 < k < 7), C (k = 7). The conditions, as the kernel computes them from
  the grid coordinates, are decided over the 128 points in closed form (`t % 8 = 0`, `t % 8 = 7`); the result window is
  idle, and not written back, wherever k ≠ 7.

  Each case's run states: on whole staging buffers holding the inputs' contents, the result buffer untouched (cases A, B)
  or at anything (case C), the accumulator at anything (case A) or at what the point before left (cases B, C), the body
  runs to the continuation with the inputs as they were and each stored buffer holding its stores as pieces, last first.
-/
import proofs.«141827_j21225728377224_2_alg».proof.Proof.Gen.KernelIdeal.Launch
import proofs.«141827_j21225728377224_2_alg».proof.Proof.Gen.KernelIdeal.Skeleton
import proofs.«141827_j21225728377224_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the index
    has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first block of the contracted axis" (k = 0), as the kernel computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of the contracted axis" (k = 7), as the kernel computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 7 the body stores nothing into the result window, and the pipeline does not write its block back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 7 it stores into it. -/
theorem liveAt1_3 : ∀ t : Fin cfg1.N, cond1_1 (grid1.coords t) → cfg1.idle 3 (grid1.coords t) = false := by decide +kernel

/-! ## The staging and scratch memrefs -/

/-- One staging buffer of the result window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x2048 .f32 := Memref.whole cc1_scratch0
abbrev VS1 : View sig .tc .vmem S1024x2048 .f32 := scM1.view

/-! ## The body in each case -/

set_option maxHeartbeats 2000000 in
/-- Case A (k = 0). The accumulator is at anything; the result buffer is handed back untouched. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- Case B (0 < k < 7). The accumulator is at what the point before left, `xs`; the result buffer is handed back untouched. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs : Vec F S1024x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- Case C (k = 7). The accumulator is at what the point before left, `xs`; the result buffer is at anything and ends with
    its store written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.HandKernelIdeal.Region1.lean ====
/-
  The K-blocked matmul kernel, point by point, at any float instance.

  `outsAt1` says what the result's staging buffer and the accumulator hold after the body at the n-th grid point, by
  recursion on n: at a point of case A (k = 0) the accumulator is that case's stores, whatever it held before; at a point
  of case B or C the case's stores over what the point before left in the accumulator; the result buffer is case C's
  store at the points with k = 7 and is not consulted elsewhere. The region's invariant `PhiS1` carries the accumulator
  from point to point at exactly these contents (before the first point: at anything), beside the other scoped buffers
  and the generator register, which the body never touches. `dat1` is the region's data over them and
  `body_obligation1` says the body meets it at every grid point; `hin1` / `hout1` say the invariant starts as, and ends
  within, "every scoped buffer no window stages at anything, the generator register at some state".
-/
import proofs.«141827_j21225728377224_2_alg».proof.Proof.HandKernelIdeal.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each case at a grid point -/

/-- Case A's run at point `t`, on the point's staging buffers and input blocks. -/
abbrev runA (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)
/-- Case B's run at point `t`, over accumulator contents `xs`. -/
abbrev runB (c : Dev nD) (t : Fin cfg1.N) (h0 : ¬t.val % 8 = 0) (h1 : ¬t.val % 8 = 7) (xs : Vec F S1024x2048 .f32) :=
  kernelRun1_B (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) xs
/-- Case C's run at point `t`, over accumulator contents `xs`. -/
abbrev runC (c : Dev nD) (t : Fin cfg1.N) (h0 : ¬t.val % 8 = 0) (h1 : t.val % 8 = 7) (xs : Vec F S1024x2048 .f32) :=
  kernelRun1_C (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs

/-- What a list of stores leaves in the accumulator / in the result's staging buffer: the stores read back. -/
abbrev accOf (L : List (View.Piece (Elt F) S1024x2048 .f32)) : Vec F S1024x2048 .f32 :=
  VS1.read (Elt F) (VS1.writes (Elt F) VS1.junk L)
abbrev resOf (L : List (View.Piece (Elt F) S1024x2048 .f32)) : Vec F S1024x2048 .f32 :=
  VO1_3.read (Elt F) (VO1_3.writes (Elt F) VO1_3.junk L)

/-- In each case the accumulator's stores cover it, and in case C so does the result buffer's store. -/
theorem scoverA (c : Dev nD) (t : Fin cfg1.N) (h0 : t.val % 8 = 0) (h1 : ¬t.val % 8 = 7) (y : S1024x2048.Idx) :
    ∃ pc ∈ (runA V c t h0 h1).2.1, y ∈ pc.1.set :=
  View.cover_of_tiledL (runA V c t h0 h1).2.1 S1024x2048.size (by sl_kernel_rfl) y
theorem scoverB (c : Dev nD) (t : Fin cfg1.N) (h0 : ¬t.val % 8 = 0) (h1 : ¬t.val % 8 = 7) (xs : Vec F S1024x2048 .f32) (y : S1024x2048.Idx) :
    ∃ pc ∈ (runB V c t h0 h1 xs).2.1, y ∈ pc.1.set :=
  View.cover_of_tiledL (runB V c t h0 h1 xs).2.1 S1024x2048.size (by sl_kernel_rfl) y
theorem scoverC (c : Dev nD) (t : Fin cfg1.N) (h0 : ¬t.val % 8 = 0) (h1 : t.val % 8 = 7) (xs : Vec F S1024x2048 .f32) (y : S1024x2048.Idx) :
    ∃ pc ∈ (runC V c t h0 h1 xs).2.1, y ∈ pc.1.set :=
  View.cover_of_tiledL (runC V c t h0 h1 xs).2.1 S1024x2048.size (by sl_kernel_rfl) y
theorem coverC (c : Dev nD) (t : Fin cfg1.N) (h0 : ¬t.val % 8 = 0) (h1 : t.val % 8 = 7) (xs : Vec F S1024x2048 .f32) (y : S1024x2048.Idx) :
    ∃ pc ∈ (runC V c t h0 h1 xs).1, y ∈ pc.1.set :=
  View.cover_of_tiledL (runC V c t h0 h1 xs).1 S1024x2048.size (by sl_kernel_rfl) y

/-! ## What the result buffer and the accumulator hold after each point -/

/-- After the body at position `n`: (the result's staging buffer, the accumulator). -/
def outsAt1 (c : Dev nD) : (n : ℕ) → n < cfg1.N → Vec F S1024x2048 .f32 × Vec F S1024x2048 .f32
  | 0, hn => (resOf (runA V c ⟨0, hn⟩ (Nat.zero_mod _) (by show ¬0 % 8 = 7; decide)).1, accOf (runA V c ⟨0, hn⟩ (Nat.zero_mod _) (by show ¬0 % 8 = 7; decide)).2.1)
  | n + 1, hn =>
    if h0 : (n + 1) % 8 = 0 then
      if h1 : (n + 1) % 8 = 7 then
        False.elim (by omega)
      else
        (resOf (runA V c ⟨n + 1, hn⟩ h0 h1).1, accOf (runA V c ⟨n + 1, hn⟩ h0 h1).2.1)
    else
      if h1 : (n + 1) % 8 = 7 then
        (resOf (runC V c ⟨n + 1, hn⟩ h0 h1 (outsAt1 c n (Nat.lt_of_succ_lt hn)).2).1, accOf (runC V c ⟨n + 1, hn⟩ h0 h1 (outsAt1 c n (Nat.lt_of_succ_lt hn)).2).2.1)
      else
        (resOf (runB V c ⟨n + 1, hn⟩ h0 h1 (outsAt1 c n (Nat.lt_of_succ_lt hn)).2).1, accOf (runB V c ⟨n + 1, hn⟩ h0 h1 (outsAt1 c n (Nat.lt_of_succ_lt hn)).2).2.1)

/-- What the point before `t` left in the accumulator. -/
abbrev prevAcc (c : Dev nD) (t : Fin cfg1.N) : Vec F S1024x2048 .f32 :=
  (outsAt1 V c (t.val - 1) (Nat.lt_of_le_of_lt (Nat.sub_le _ _) t.isLt)).2

theorem outsAt1_A (c : Dev nD) (t : Fin cfg1.N) (h0 : t.val % 8 = 0) (h1 : ¬t.val % 8 = 7) :
    outsAt1 V c t.val t.isLt = (resOf (runA V c t h0 h1).1, accOf (runA V c t h0 h1).2.1) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (resOf (runB V c t h0 h1 (prevAcc V c t)).1, accOf (runB V c t h0 h1 (prevAcc V c t)).2.1) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (resOf (runC V c t h0 h1 (prevAcc V c t)).1, accOf (runC V c t h0 h1 (prevAcc V c t)).2.1) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers no window of this region stages other than the accumulator — the first region's staging buffers —
    each whole at anything, beside `S`. -/
def othersWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- "Every scoped buffer no window stages at anything, the generator register at some state", with the accumulator named. -/
theorem PhiA1_eq (c : Dev nD) :
    (Pipeline.ΦA spec1 c : sProp 𝕄)
      = iprop(othersWith c (iprop(∃ d, owns (c : Thread nD τ) scM1 fullShare d)) ∗ (∃ r, prngReg c r)) := by
  unfold Pipeline.ΦA othersWith; rw [scopedRest1_eq]; simp only [scM1, owns_whole]; try rfl

/-- The invariant before position `n`: before the first point every scoped buffer at anything; afterwards the accumulator
    at what the point before left in it. -/
def PhiS1 (c : Dev nD) : (n : ℕ) → n ≤ cfg1.N → sProp 𝕄
  | 0, _ => Pipeline.ΦA spec1 c
  | n + 1, hn => iprop(othersWith c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(othersWith c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(othersWith c (owns (c : Thread nD τ) scM1 fullShare ((outsAt1 V c (n - 1) (by omega)).2)) ∗ (∃ r, prngReg c r)) := by
  cases n with
  | zero => exact absurd rfl hz
  | succ n => rfl

/-! ## The region's data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    (try dsimp only)
    by_cases hz : t.val = 0
    · rw [PhiS1_castSucc V c t, PhiS1_zero V c _ _ hz, PhiA1_eq]
      unfold othersWith
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hb0 Hb1 Hb2 Hb3 Hb4 Hb5 Hb6 Hb7 HS Hg]
      · isplitl [Hb0 Hb1 Hb2 Hb3 Hb4 Hb5 Hb6 Hb7 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      unfold othersWith
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hb0 Hb1 Hb2 Hb3 Hb4 Hb5 Hb6 Hb7 HS Hg]
      · isplitl [Hb0 Hb1 Hb2 Hb3 Hb4 Hb5 Hb6 Hb7 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    rw [PhiS1_castSucc V c t, PhiS1_pos V c _ _ hz]
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      (try dsimp only)
      unfold othersWith
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hb0 Hb1 Hb2 Hb3 Hb4 Hb5 Hb6 Hb7 HS Hg]
      · isplitl [Hb0 Hb1 Hb2 Hb3 Hb4 Hb5 Hb6 Hb7 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC V c t h0 h1 _)
    · rw [Dat.leavesExact_idle (dat1 V c) 3 t (idleAt1_3 t (fun h => h1 ((hcond1_1 t).mp h))) (noFlush1_3 t (fun h => h1 ((hcond1_1 t).mp h)))]
      rw [outsAt1_B V c t h0 h1]
      (try dsimp only)
      unfold othersWith
      iintro ⟨⟨⟨Hb0, Hb1, Hb2, Hb3, Hb4, Hb5, Hb6, Hb7, HS⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hb0 Hb1 Hb2 Hb3 Hb4 Hb5 Hb6 Hb7 HS Hg]
      · isplitl [Hb0 Hb1 Hb2 Hb3 Hb4 Hb5 Hb6 Hb7 HS]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold othersWith
  iintro ⟨⟨Hb0, Hb1, Hb2, Hb3, Hb4, Hb5, Hb6, Hb7, HS⟩, Hg⟩
  isplitl [Hb0 Hb1 Hb2 Hb3 Hb4 Hb5 Hb6 Hb7 HS]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    iexists _; iexact HS
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.HandKernelIdeal.Run.lean ====
/-
  The whole program's run, at any float instance: @main is a stretch of two host reshapes, the weight-merge region, the
  matmul region, and one host reshape.

  The contents of the core's unscoped buffers at each boundary are a fold from the launch memory: `W1` after the first
  stretch; `W2` after the merge region (its result array at what its write-backs leave, every other buffer as entered);
  `W3` after the matmul region (likewise); `W4` after the last reshape. Each region is entered from "every unscoped
  buffer at the boundary's contents, the generator register at some state, nothing owed" and left at the same with the
  next boundary's contents: its arrays are split out of the unscoped buffers at entry and put back at exit, the
  generator register goes into its invariant and comes back, and for the matmul region the accumulator is handed in
  with the other scoped buffers and handed back with its contents forgotten.
  `run`: every weakly fair execution from any memory with zero counters terminates, and in every final state every
  unscoped buffer holds `W4`. `W4_main_argK`: each argument array reads back through the fold to its launch contents.
  `frame` is the frame claim, and `W4_main_v4` names the result as the last reshape of the matmul region's result array.
-/
import proofs.«141827_j21225728377224_2_alg».proof.Proof.HandKernelIdeal.Region0
import proofs.«141827_j21225728377224_2_alg».proof.Proof.HandKernelIdeal.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the merge region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the matmul region: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The merge region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch leaves the last thread state beside the core owing nothing. -/
theorem last_chain (c : Dev nD) :
    (iprop(StableHlo.held (c : Thread nD τ) (Pipeline.ucRefs τ sig) (W4 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer of every core at `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W1_keep (c : Dev nD) (b : Ref sig .tc) (h : b ∉ ([main_v0, main_v1] : List (Ref sig .tc))) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne (fun e => h (e ▸ List.mem_cons_self)),
      StableHlo.devRef_ne_of_ne (fun e => h (e ▸ List.mem_cons_of_mem _ List.mem_cons_self))⟩))
theorem W4_keep (c : Dev nD) (b : Ref sig .tc) (h : b ≠ main_v4) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

/-- `main_arg0` (the activations) is no window's array of either region and no host stretch writes it. -/
theorem W4_main_arg0 (c : Dev nD) : W4 m ρ c (Proc.devRef .tc main_arg0) = m ((c : Thread nD τ).loc main_arg0) :=
  (W4_keep m ρ c main_arg0 (by decide)).trans <| (W3_of_ne m ρ c main_arg0 (by decide)).trans <|
    (W2_of_ne m ρ c main_arg0 (by decide)).trans <| W1_keep m ρ c main_arg0 (by decide)
/-- `main_arg2` (the bias) likewise. -/
theorem W4_main_arg2 (c : Dev nD) : W4 m ρ c (Proc.devRef .tc main_arg2) = m ((c : Thread nD τ).loc main_arg2) :=
  (W4_keep m ρ c main_arg2 (by decide)).trans <| (W3_of_ne m ρ c main_arg2 (by decide)).trans <|
    (W2_of_ne m ρ c main_arg2 (by decide)).trans <| W1_keep m ρ c main_arg2 (by decide)
/-- `main_arg1` (the dense weight) is the merge region's input window 0: an input's array is left as entered. -/
theorem W4_main_arg1 (c : Dev nD) : W4 m ρ c (Proc.devRef .tc main_arg1) = m ((c : Thread nD τ).loc main_arg1) :=
  (W4_keep m ρ c main_arg1 (by decide)).trans <| (W3_of_ne m ρ c main_arg1 (by decide)).trans <|
    ((W2_arr m ρ c 0).trans (((dat0 (V1 m ρ) c).arrAt_in 0 rfl _).trans (A_eq0 (V1 m ρ) c 0))).trans <| W1_keep m ρ c main_arg1 (by decide)
theorem W4_main_arg3 (c : Dev nD) : W4 m ρ c (Proc.devRef .tc main_arg3) = m ((c : Thread nD τ).loc main_arg3) :=
  (W4_keep m ρ c main_arg3 (by decide)).trans <| (W3_of_ne m ρ c main_arg3 (by decide)).trans <|
    ((W2_arr m ρ c 1).trans (((dat0 (V1 m ρ) c).arrAt_in 1 rfl _).trans (A_eq0 (V1 m ρ) c 1))).trans <| W1_keep m ρ c main_arg3 (by decide)
theorem W4_main_arg4 (c : Dev nD) : W4 m ρ c (Proc.devRef .tc main_arg4) = m ((c : Thread nD τ).loc main_arg4) :=
  (W4_keep m ρ c main_arg4 (by decide)).trans <| (W3_of_ne m ρ c main_arg4 (by decide)).trans <|
    ((W2_arr m ρ c 2).trans (((dat0 (V1 m ρ) c).arrAt_in 2 rfl _).trans (A_eq0 (V1 m ρ) c 2))).trans <| W1_keep m ρ c main_arg4 (by decide)

/-- THE FRAME: every execution terminates, nothing faulting, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run m ρ)

end Cert.KernelIdeal.Hand

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.LibRowsDot.lean ====
/-
  A dense layer's two ingredients, read at an entry.

  A dense layer h ↦ h · Wᵀ + b with the weights stored output-coordinate first is, in a kernel, a product whose right
  operand is contracted along its ROWS, started from the zero accumulator, plus the bias vector made a one-row matrix
  and spread over the rows. Read on the extended reals at (p, q): the product is Σ_k lhs (p, k) · rhs (q, k), and the
  spread bias is the bias at q. Both for any extents.
-/
import proofs.«141827_j21225728377224_2_alg».proof.Proof.LibTransDot
import Idealize.ShloMosaic.Lib.ValueLayout
import Idealize.ShloMosaic.PureOps.Ideal.Laws

noncomputable section

namespace RowsDot

open Idealize.ShloMosaic Idealize.ShloMosaic.ValueIdx

/-- A product whose right operand is contracted along its rows, into the zero accumulator, at an entry. -/
theorem rowsDot_apply {M K N : ℕ} (lhs : FVec Ideal ⟨2, ![M, K]⟩ .f32) (rhs : FVec Ideal ⟨2, ![N, K]⟩ .f32)
    (p : Fin M) (q : Fin N) :
    FloatOps.matmul (DotDims.transposedRhs M K N) none lhs rhs (constant ⟨2, ![M, N]⟩ .f32 0x00000000#32) (ix2 p q)
      = ∑ k : Fin K, lhs (ix2 p k) * rhs (ix2 q k) :=
  (Ideal.matmul_constant_zero_apply (DotDims.transposedRhs M K N) none lhs rhs (ix2 p q)).trans
    (Cert.TransDot.contraction_eq lhs rhs p q)

/-- A bias vector made a [1, C] row and spread over M rows reads, at (p, j), the vector at j. -/
theorem biasRow_apply {α : Type} {M C : ℕ} (b : (⟨1, ![C]⟩ : Shape).Idx → α)
    (h1 : (⟨1, ![C]⟩ : Shape).ShapeCasts ⟨2, ![1, C]⟩) (h2 : (⟨2, ![1, C]⟩ : Shape).Broadcasts ⟨2, ![M, C]⟩)
    (p : Fin M) (j : Fin C) :
    broadcastTo ⟨2, ![M, C]⟩ (shapeCast ⟨2, ![1, C]⟩ b h1) h2 (ix2 p j) = b (ix1 j) :=
  (broadcastTo_1b_ab_apply _ h2 p j).trans (shapeCast_a_1a_apply b h1 (0 : Fin 1) j)

end RowsDot

end
-- ==== Proof.Payloads.lean ====
/-
  The arithmetic of the two kernel bodies, read at one entry on the extended reals.

  Each body computes, between its loads and its stores, a pure function of the blocks it has read. On the extended
  reals every float operation is the exact one: rounding to a narrower format is the identity, a reshape to the same
  shape is the identity, and the float literal with all bits zero is 0. So, at the entry (p, q) of a block:

  * the weight-merge body gives  W (p, q) + ∑ r, A (p, r) · B (r, q)   (a 1024×16 by 16×1024 product added to the
    block of the dense weight);
  * the product body's first step gives 0 (the accumulator is cleared);
  * its middle step gives  acc (p, q) + ∑ k, x (p, k) · w (q, k)   (a 1024×512 block of activations against a
    2048×512 block of the merged weight, contracted along the ROWS of the latter, added to the accumulator);
  * its last step gives  acc (p, q) + b (0, q)   (the one-row bias block spread over the rows).

  The two printed dimension-number records are, field by field, those of a plain product and of a product with the
  right operand contracted along its rows (their well-formedness fields are propositions), so the general entry
  formulas for those two products apply.
-/
import proofs.«141827_j21225728377224_2_alg».proof.Proof.Gen.KernelIdeal.Skeleton
import proofs.«141827_j21225728377224_2_alg».proof.Proof.LibPlainDot
import proofs.«141827_j21225728377224_2_alg».proof.Proof.LibRowsDot
import Idealize.ShloMosaic.Lib.ValueLayout
import Idealize.ShloMosaic.Lib.Pipeline.Value
import Idealize.ShloMosaic.PureOps.Ideal.Laws

noncomputable section

namespace Cert.Lora.Pay

open Idealize.ShloMosaic Idealize.ShloMosaic.ValueIdx Cert.KernelIdeal Cert.KernelIdeal.Gen
open scoped BigOperators

/-- The merge body's dimension numbers are those of a plain 1024×16 by 16×1024 product. -/
theorem dot0_eq : dot_S1024x16_S16x1024_S1024x1024_1_0_0_1_n_n = DotDims.plain 1024 16 1024 := rfl

/-- The product body's dimension numbers are those of a 1024×512 by 2048×512 product contracted along the rows of
    the right operand. -/
theorem dot1_eq : dot_S1024x512_S2048x512_S1024x2048_1_1_0_0_n_n = DotDims.transposedRhs 1024 512 2048 := rfl

/-- The merge body at (p, q): the dense weight's entry plus the rank-16 sum. -/
theorem combine_apply (v0 : Vec Ideal S1024x16 .f32) (v1 : Vec Ideal S16x1024 .f32) (v3 : Vec Ideal S1024x1024 .f32)
    (p q : Fin 1024) :
    k0_pay1 (F := Ideal) v0 v1 v3 (ix2 p q) = v3 (ix2 p q) + ∑ r : Fin 16, v0 (ix2 p r) * v1 (ix2 r q) := by
  refine Eq.trans ?_ (congrArg (v3 (ix2 p q) + ·) (Cert.PlainDot.matmul_zero_apply none v0 v1 p q))
  rfl

/-- The product body's middle step at (p, q): the accumulator's entry plus the block's contraction, a row of the
    activations against a row of the weight block. -/
theorem acc_apply (v3 : Vec Ideal S1024x512 .f32) (v6 : Vec Ideal S1024x2048 .f32) (v7 : Vec Ideal S2048x512 .bf16)
    (p : Fin 1024) (q : Fin 2048) :
    k1_pay2 (F := Ideal) v3 v6 v7 (ix2 p q) = v6 (ix2 p q) + ∑ k : Fin 512, v3 (ix2 p k) * v7 (ix2 q k) := by
  have hprod : FloatOps.matmul (F := Ideal) (φ₁ := .bf16) (φ₂ := .bf16) (DotDims.transposedRhs 1024 512 2048) none v3 v7
      (constant (F := Ideal) S1024x2048 .f32 0x00000000#32) (ix2 p q) = ∑ k : Fin 512, v3 (ix2 p k) * v7 (ix2 q k) :=
    (Ideal.matmul_constant_zero_apply (φ₁ := .bf16) (φ₂ := .bf16) (DotDims.transposedRhs 1024 512 2048) none v3 v7 (ix2 p q)).trans
      (Cert.TransDot.contraction_eq v3 v7 p q)
  refine Eq.trans ?_ (congrArg (v6 (ix2 p q) + ·) hprod)
  unfold k1_pay2
  rw [shapeCast_self v3, shapeCast_self v7, shapeCast_self]
  rfl

/-- The product body's first step at (p, q): the cleared accumulator. -/
theorem zero_apply (p : Fin 1024) (q : Fin 2048) : k1_pay1 (F := Ideal) (ix2 p q) = 0 := by
  unfold k1_pay1
  rw [shapeCast_self]
  exact Ideal.ofBits_zero_f32

/-- The product body's last step at (p, q): the accumulator's entry plus the bias row's entry at q. -/
theorem bias_apply (v17 : Vec Ideal S1024x2048 .f32) (v18 : Vec Ideal S1x2048 .f32) (p : Fin 1024) (q : Fin 2048) :
    k1_pay3 (F := Ideal) v17 v18 (ix2 p q) = v17 (ix2 p q) + v18 (ix2 (0 : Fin 1) q) := by
  unfold k1_pay3
  rw [shapeCast_self v18]
  exact congrArg (v17 (ix2 p q) + ·) (broadcastTo_1b_ab_apply v18 broadcasts_S1x2048_S1024x2048 p q)

end Cert.Lora.Pay

end
-- ==== Proof.Spec.lean ====
/-
  A linear layer with a low-rank update, as two arrangements of one function of the five argument arrays.

  The activations are `x[b, s, k]`, the dense weight `W[n, k]`, the bias `bias[n]`, and the update has the two
  factors `A[n, r]` and `B[r, k]` of rank 16. The merged weight is `W[n, k] + ∑ r, A[n, r] · B[r, k]`.

  * `merged`: the activations against the merged weight, then the bias:
      `(∑ k, x[b, s, k] · (W[n, k] + ∑ r, A[n, r] · B[r, k])) + bias[n]`.
  * `split`: the dense layer with its bias, plus the activations against the update alone:
      `((∑ k, x[b, s, k] · W[n, k]) + bias[n]) + ∑ k, x[b, s, k] · (∑ r, A[n, r] · B[r, k])`.

  On the extended reals the two agree wherever every entry is a real number (distributivity); at infinite entries
  they need not.
-/
import Idealize.ShloMosaic.PureOps.Ideal
import Idealize.ShloMosaic.Lib.ValueIdx

noncomputable section

namespace Cert.Lora

open Idealize.ShloMosaic Idealize.ShloMosaic.ValueIdx
open scoped BigOperators

/-- The shapes of the five argument arrays and of the result. -/
abbrev SX : Shape := ⟨3, ![4, 2048, 4096]⟩
abbrev SW : Shape := ⟨2, ![4096, 4096]⟩
abbrev SBias : Shape := ⟨1, ![4096]⟩
abbrev SA : Shape := ⟨2, ![4096, 16]⟩
abbrev SB : Shape := ⟨2, ![16, 4096]⟩

/-- The update's entry `(n, k)`: `∑ r, A[n, r] · B[r, k]`. -/
def update (A : SA.Idx → EReal) (B : SB.Idx → EReal) (n k : Fin 4096) : EReal :=
  ∑ r : Fin 16, A (ix2 n r) * B (ix2 r k)

/-- The merged weight's entry `(n, k)`. -/
def weff (W : SW.Idx → EReal) (A : SA.Idx → EReal) (B : SB.Idx → EReal) (n k : Fin 4096) : EReal :=
  W (ix2 n k) + update A B n k

/-- The activations against the merged weight, then the bias. -/
def merged (x : SX.Idx → EReal) (W : SW.Idx → EReal) (bias : SBias.Idx → EReal) (A : SA.Idx → EReal) (B : SB.Idx → EReal)
    (i : SX.Idx) : EReal :=
  (∑ k : Fin 4096, x (ix3 (i 0) (i 1) k) * weff W A B (i 2) k) + bias (ix1 (i 2))

/-- The dense layer with its bias, plus the activations against the update alone. -/
def split (x : SX.Idx → EReal) (W : SW.Idx → EReal) (bias : SBias.Idx → EReal) (A : SA.Idx → EReal) (B : SB.Idx → EReal)
    (i : SX.Idx) : EReal :=
  ((∑ k : Fin 4096, x (ix3 (i 0) (i 1) k) * W (ix2 (i 2) k)) + bias (ix1 (i 2)))
    + ∑ k : Fin 4096, x (ix3 (i 0) (i 1) k) * update A B (i 2) k

end Cert.Lora

end
-- ==== Proof.Value0.lean ====
/-
  The weight-merge kernel's result array, index by index: the merged weight.

  The merge kernel runs over a 4 × 4 grid. At point (i, j) it is handed block (i, j) of the dense weight W
  (1024 × 1024), block (i, 0) of the update's left factor A (1024 × 16) and block (0, j) of its right factor B
  (16 × 1024), and stores over the whole block (i, j) of its result the entry-wise value
    W_blk (p, q) + ∑ r, A_blk (p, r) · B_blk (r, q).
  A block's entry (p, q) is the array's entry (1024 · i + p, 1024 · j + q) for W and the result, (1024 · i + p, r)
  for A and (r, 1024 · j + q) for B. So what point (i, j) writes back is block (i, j) of the one array
    G (n, k) = W (n, k) + ∑ r, A (n, r) · B (r, k),
  the merged weight. The sixteen blocks tile the 4096 × 4096 result (entry (n, k) lies in the block of the point
  (n / 1024, k / 1024)), so after the region the result array is G.
-/
import proofs.«141827_j21225728377224_2_alg».proof.Proof.HandKernelIdeal.Region0
import proofs.«141827_j21225728377224_2_alg».proof.Proof.Payloads
import proofs.«141827_j21225728377224_2_alg».proof.Proof.Spec
import proofs.«141827_j21225728377224_2_alg».proof.Proof.Gen.KernelIdeal.Points
import proofs.«141827_j21225728377224_2_alg».proof.Proof.Gen.KernelIdeal.Launch
import Idealize.ShloMosaic.Lib.Pipeline.Value

noncomputable section

namespace Cert.Lora.MergeValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The body's one store starts at the block's origin. -/
theorem origin_zero : (![0, 0] : Fin 2 → Nat) = fun _ => 0 := funext fun a => by fin_cases a <;> rfl

/-- The merged weight as one array of the three argument arrays. -/
abbrev mergedWeight (W : S4096x4096.Idx → EReal) (A : S4096x16.Idx → EReal) (B : S16x4096.Idx → EReal) :
    S4096x4096.Idx → EReal :=
  fun i => Cert.Lora.weff W A B (i 0) (i 1)

/-- The merge body at any entry `y` of the block: the dense weight's entry plus the rank-16 sum along the entry's
    row of the left factor and column of the right factor. -/
theorem combine_at (v0 : Vec Ideal S1024x16 .f32) (v1 : Vec Ideal S16x1024 .f32) (v3 : Vec Ideal S1024x1024 .f32)
    (y : S1024x1024.Idx) :
    k0_pay1 (F := Ideal) v0 v1 v3 y = v3 y + ∑ r : Fin 16, v0 (ix2 (y 0) r) * v1 (ix2 r (y 1)) :=
  (congrArg (k0_pay1 (F := Ideal) v0 v1 v3) (eq_ix2 y)).trans
    ((Cert.Lora.Pay.combine_apply v0 v1 v3 (y 0) (y 1)).trans
      (congrArg (fun z => v3 z + ∑ r : Fin 16, v0 (ix2 (y 0) r) * v1 (ix2 r (y 1))) (eq_ix2 y).symm))

/-- The printed index maps, decided over the sixteen points: the dense weight's block moves with the result's on both
    axes, the left factor's on the rows (its column block is always 0), the right factor's on the columns (its row
    block is always 0), and the result's block indices stay below 4. -/
theorem index_facts : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every block of the 4 × 4 tiling is some point's. -/
theorem index_onto : ∀ (q0 : Fin 4) (q1 : Fin 4), ∃ t : Fin cfg0.N, win0_3.index t = ![q0.val, q1.val] :=
  (by decide +kernel : ∀ (q0 : Fin 4) (q1 : Fin 4), ∃ t : Fin grid0.N, win0_3.index t = ![q0.val, q1.val])

/-- The body's value at entry `y` of point `t`'s blocks is the merged weight at the array entry `(n, k)` where the
    result's block puts `y`: row `1024 · i + y 0`, column `1024 · j + y 1`. Each input block is read where the same
    coordinates say: the dense weight at `(n, k)`, the left factor at `(n, r)`, the right factor at `(r, k)`. -/
theorem point_entry (c : Dev nD) (t : Fin cfg0.N) (y : S1024x1024.Idx) (n k : Fin 4096)
    (hn : n.val = win0_3.index t (0 : Fin 2) * 1024 + 1 * (y 0).val)
    (hk : k.val = win0_3.index t (1 : Fin 2) * 1024 + 1 * (y 1).val) :
    k0_pay1 (F := Ideal) (iblk0 V c 1 t) (iblk0 V c 2 t) (iblk0 V c 0 t) y
      = Cert.Lora.weff (V c main_arg1) (V c main_arg3) (V c main_arg4) n k := by
  obtain ⟨e0, e1, e2, e3, e4, e5, e6, e7⟩ := index_facts t
  refine (combine_at _ _ _ y).trans ?_
  unfold Cert.Lora.weff Cert.Lora.update
  refine congrArg₂ (· + ·) ?_ (Finset.sum_congr rfl fun r _ => congrArg₂ (· * ·) ?_ ?_)
  · show V c main_arg1 (((cfg0.win 0).blk t).view.emb y) = V c main_arg1 (ix2 n k)
    refine congrArg (V c main_arg1) (funext fun a => Fin.ext ?_)
    match a with
    | ⟨0, _⟩ => show win0_0.index t (0 : Fin 2) * 1024 + 1 * (y 0).val = n.val; omega
    | ⟨1, _⟩ => show win0_0.index t (1 : Fin 2) * 1024 + 1 * (y 1).val = k.val; omega
  · show V c main_arg3 (((cfg0.win 1).blk t).view.emb (ix2 (y 0) r)) = V c main_arg3 (ix2 n r)
    refine congrArg (V c main_arg3) (funext fun a => Fin.ext ?_)
    match a with
    | ⟨0, _⟩ => show win0_1.index t (0 : Fin 2) * 1024 + 1 * (y 0).val = n.val; omega
    | ⟨1, _⟩ => show win0_1.index t (1 : Fin 2) * 16 + 1 * r.val = r.val; omega
  · show V c main_arg4 (((cfg0.win 2).blk t).view.emb (ix2 r (y 1))) = V c main_arg4 (ix2 r k)
    refine congrArg (V c main_arg4) (funext fun a => Fin.ext ?_)
    match a with
    | ⟨0, _⟩ => show win0_2.index t (0 : Fin 2) * 16 + 1 * r.val = r.val; omega
    | ⟨1, _⟩ => show win0_2.index t (1 : Fin 2) * 1024 + 1 * (y 1).val = k.val; omega

/-- What point `t` writes back is block `t` of the merged weight of the argument arrays as the region finds them. -/
theorem flushed_eq (c : Dev nD) (t : Fin cfg0.N) :
    (dat0 (F := Ideal) V c).flushed 3 t
      = ((cfg0.win 3).blk t).view.read (Elt Ideal) (mergedWeight (V c main_arg1) (V c main_arg3) (V c main_arg4)) := by
  show (cfg0.win 3).cut (grid0.coords t) ((dat0 (F := Ideal) V c).after 3 t) = _
  rw [after0_3]
  unfold out0_3
  rw [View.canon_unit_zero origin_zero]
  simp only [View.ld_unit_zero (S := S1024x1024) origin_zero, View.ld_unit_zero (S := S1024x16) origin_zero,
    View.ld_unit_zero (S := S16x1024) origin_zero]
  funext y
  show k0_pay1 (F := Ideal) (iblk0 V c 1 t) (iblk0 V c 2 t) (iblk0 V c 0 t) y
    = Cert.Lora.weff (V c main_arg1) (V c main_arg3) (V c main_arg4)
        ((((cfg0.win 3).blk t).view.emb y) 0) ((((cfg0.win 3).blk t).view.emb y) 1)
  exact point_entry V c t y _ _ rfl rfl

/-- An entry of the array is in point `t`'s block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- The blocks tile the array: entry `(n, k)` lies in the block of the point `(n / 1024, k / 1024)`, which writes
    back. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- After the merge region the result array is the merged weight of the dense weight and the two factors as the region
    finds them, index by index. -/
theorem merge_array (c : Dev nD) :
    (dat0 (F := Ideal) V c).arrAt 3 cfg0.N
      = fun i : S4096x4096.Idx => Cert.Lora.weff (V c main_arg1) (V c main_arg3) (V c main_arg4) (i 0) (i 1) :=
  (dat0 (F := Ideal) V c).arrAt_eq_of_cover 3 (mergedWeight (V c main_arg1) (V c main_arg3) (V c main_arg4))
    (fun t _ => flushed_eq V c t) cover

end Cert.Lora.MergeValue

end
-- ==== Proof.HandKernelIdeal.Pieces1.lean ====
/-
  The K-blocked matmul kernel's stores, read back as values, at any float instance.

  In each of the three cases the body's stores into the accumulator cover it, so what the accumulator holds afterwards is
  the payload of the last store, and every load of the body reads a whole buffer, so each payload is the body's pure
  arithmetic of the blocks and of what the accumulator held:

  * case A (k = 0): the accumulator is cleared, read back, and left at  step (activations, cleared, weights);
  * cases B and C: it is left at  step (activations, what the point before left, weights);
  * case C (k = 7) also stores into the result block the accumulator just written, read back, plus the bias row spread
    over the rows:  last (step (activations, before, weights), bias).

  Here step is the "accumulator + activations · weightsᵀ" function and last the "accumulator + bias row" function of the
  kernel body; neither is opened.
-/
import proofs.«141827_j21225728377224_2_alg».proof.Proof.HandKernelIdeal.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offsets of a load or store of a whole two-axis buffer are zero on both axes. -/
theorem zeroOffsets : (![0, 0] : Fin 2 → Nat) = fun _ => 0 := funext fun a => by fin_cases a <;> rfl

/-- Case B: the accumulator is left at the step function of the point's blocks over what it held. -/
theorem accB (c : Dev nD) (t : Fin cfg1.N) (h0 : ¬t.val % 8 = 0) (h1 : ¬t.val % 8 = 7) (xs : Vec F S1024x2048 .f32) :
    accOf (runB V c t h0 h1 xs).2.1 = k1_pay2 (iblk1 V c 0 t) xs (iblk1 V c 1 t) := by
  refine (View.read_writes_eq_canon VS1 VS1.junk _ (scoverB V c t h0 h1 xs)).trans ?_
  unfold runB kernelRun1_B
  dsimp only
  rw [View.canon_unit_zero zeroOffsets]
  simp only [View.readAt_eq_ld, (hs1_0 t).read_unread, (hs1_1 t).read_unread, (Memref.isWhole_whole _).read_unread,
    View.ld_unit_zero (S := S1024x512) zeroOffsets, View.ld_unit_zero (S := S2048x512) zeroOffsets,
    View.ld_unit_zero (S := S1024x2048) zeroOffsets]

/-- Case C: the accumulator is left at the step function of the point's blocks over what it held. -/
theorem accC (c : Dev nD) (t : Fin cfg1.N) (h0 : ¬t.val % 8 = 0) (h1 : t.val % 8 = 7) (xs : Vec F S1024x2048 .f32) :
    accOf (runC V c t h0 h1 xs).2.1 = k1_pay2 (iblk1 V c 0 t) xs (iblk1 V c 1 t) := by
  refine (View.read_writes_eq_canon VS1 VS1.junk _ (scoverC V c t h0 h1 xs)).trans ?_
  unfold runC kernelRun1_C
  dsimp only
  sl_unfold_words
  rw [View.canon_unit_zero zeroOffsets]
  simp only [View.readAt_eq_ld, (hs1_0 t).read_unread, (hs1_1 t).read_unread, (hs1_2 t).read_unread,
    (Memref.isWhole_whole _).read_unread, View.ld_unit_zero (S := S1024x512) zeroOffsets,
    View.ld_unit_zero (S := S2048x512) zeroOffsets, View.ld_unit_zero (S := S1024x2048) zeroOffsets,
    View.ld_unit_zero (S := S1x2048) zeroOffsets]

/-- Case C: the result block is left at the accumulator just written, read back, plus the bias row. -/
theorem resC (c : Dev nD) (t : Fin cfg1.N) (h0 : ¬t.val % 8 = 0) (h1 : t.val % 8 = 7) (xs : Vec F S1024x2048 .f32) :
    resOf (runC V c t h0 h1 xs).1 = k1_pay3 (k1_pay2 (iblk1 V c 0 t) xs (iblk1 V c 1 t)) (iblk1 V c 2 t) := by
  refine (View.read_writes_eq_canon VO1_3 VO1_3.junk _ (coverC V c t h0 h1 xs)).trans ?_
  unfold runC kernelRun1_C
  dsimp only
  sl_unfold_words
  rw [View.canon_unit_zero zeroOffsets, View.readCov_unit_zero (S := S1024x2048) _ zeroOffsets]
  simp only [View.readAt_eq_ld, (hs1_0 t).read_unread, (hs1_1 t).read_unread, (hs1_2 t).read_unread,
    (Memref.isWhole_whole _).read_unread, View.ld_unit_zero (S := S1024x512) zeroOffsets,
    View.ld_unit_zero (S := S2048x512) zeroOffsets, View.ld_unit_zero (S := S1024x2048) zeroOffsets,
    View.ld_unit_zero (S := S1x2048) zeroOffsets]

/-- Case A: the accumulator is cleared, read back, and left at the step function of the point's blocks over the
    cleared one. -/
theorem accA (c : Dev nD) (t : Fin cfg1.N) (h0 : t.val % 8 = 0) (h1 : ¬t.val % 8 = 7) :
    accOf (runA V c t h0 h1).2.1 = k1_pay2 (iblk1 V c 0 t) (k1_pay1 (F := F)) (iblk1 V c 1 t) := by
  refine (View.read_writes_eq_canon VS1 VS1.junk _ (scoverA V c t h0 h1)).trans ?_
  unfold runA kernelRun1_A
  dsimp only
  sl_unfold_words
  rw [View.canon_cons_unit_zero (S := S1024x2048) zeroOffsets, View.readCov_unit_zero (S := S1024x2048) _ zeroOffsets]
  simp only [View.readAt_eq_ld, (hs1_0 t).read_unread, (hs1_1 t).read_unread, (hs1_2 t).read_unread,
    (Memref.isWhole_whole _).read_unread, View.ld_unit_zero (S := S1024x512) zeroOffsets,
    View.ld_unit_zero (S := S2048x512) zeroOffsets, View.ld_unit_zero (S := S1024x2048) zeroOffsets,
    View.ld_unit_zero (S := S1x2048) zeroOffsets]

end Cert.KernelIdeal.Hand

end
-- ==== Proof.LibAccumBlocks.lean ====
/-
  A running total that is reset at every p-th step and otherwise takes up one more term: after the step numbered
  `p * j + k` (with `k < p`) it holds the sum of the terms of the steps `p * j, …, p * j + k` — the terms of its own
  period only, whatever was there before the reset. Only commutativity and associativity of the addition are used, so
  the statement holds in every additive commutative monoid; on the extended reals no finiteness is needed.
-/
import Mathlib.Algebra.BigOperators.Fin
import Mathlib.Algebra.BigOperators.Intervals

namespace AccumBlocks

open Finset

/-- `S` is the total after each step (defined for the steps below `N`), `B` the term a step contributes. If a step whose
    number is a multiple of `p` leaves exactly its own term (`hreset`) and every other step adds its term to what the step
    before left (`hstep`), then after step `p * j + k`, `k < p`, the total is `∑_{i ≤ k} B (p * j + i)`. -/
theorem total_eq_sum_range {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j : ℕ) : ∀ (k : ℕ), k < p → ∀ (n : ℕ) (h : n < N), n = p * j + k →
      S n h = ∑ i ∈ Finset.range (k + 1), B (p * j + i)
  | 0, _, n, h, hn => by
    subst hn
    rw [hreset _ h (by rw [Nat.add_zero]; exact Nat.mul_mod_right p j), Finset.sum_range_one]
  | k + 1, hk, n, h, hn => by
    subst hn
    have hne : (p * j + k + 1) % p ≠ 0 := by
      rw [Nat.add_assoc, Nat.mul_add_mod, Nat.mod_eq_of_lt hk]
      exact Nat.succ_ne_zero k
    have e := hstep (p * j + k) h hne
    rw [show S (p * j + (k + 1)) h = S (p * j + k + 1) h from rfl, e,
      total_eq_sum_range p N S B hreset hstep j k (Nat.lt_of_succ_lt hk) (p * j + k) _ rfl,
      Finset.sum_range_succ (fun i => B (p * j + i)) (k + 1)]
    rfl

/-- The same with the sum written over `Fin (k + 1)`. -/
theorem total_eq_sum_fin {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j k : ℕ) (hk : k < p) (n : ℕ) (h : n < N) (hn : n = p * j + k) :
    S n h = ∑ i : Fin (k + 1), B (p * j + i.val) := by
  rw [total_eq_sum_range p N S B hreset hstep j k hk n h hn, Finset.sum_range]

end AccumBlocks
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«141827_j21225728377224_2_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.Value1.lean ====
/-
  The K-blocked product kernel, read as one function of its three arrays, on the extended reals.

  The kernel is handed the activations x (8192 × 4096), the merged weight w (4096 × 4096) and the bias row b
  (1 × 4096), and walks a grid of 8 × 2 × 8 points; point number t has row block t / 16, column block (t / 8) mod 2 and
  contraction block t mod 8. An accumulator is cleared at the first contraction block of each (row block, column block)
  pair and takes up, at every point, the partial product of the point's blocks:  ∑ k' < 512, x (p, k') · w (q, k').
  So after the point 8 j + i it holds, at (p, q), the sum of the partial products of the points 8 j, …, 8 j + i (a running
  total that is reset every eighth step). At the last contraction block the result block is written: the accumulator
  plus the bias row.

  Each block read at an entry is the array read at (block index × block size + the entry's coordinate), so the eight
  partial products are the eight consecutive stretches of 512 terms of the whole contraction over 4096, and the result
  array ends holding, at (r, n),

      (∑ k < 4096, x (r, k) · w (n, k)) + b (0, n).

  Every (r, n) lies in the result block of exactly the point with row block r / 1024, column block n / 2048 and
  contraction block 7, which is a point that writes its block back; so the whole array is this function.
-/
import proofs.«141827_j21225728377224_2_alg».proof.Proof.HandKernelIdeal.Pieces1
import proofs.«141827_j21225728377224_2_alg».proof.Proof.Payloads
import proofs.«141827_j21225728377224_2_alg».proof.Proof.LibAccumBlocks
import proofs.«141827_j21225728377224_2_alg».proof.Proof.LibBlockSum
import proofs.«141827_j21225728377224_2_alg».proof.Proof.Spec
import proofs.«141827_j21225728377224_2_alg».proof.Proof.Gen.KernelIdeal.Points
import proofs.«141827_j21225728377224_2_alg».proof.Proof.Gen.KernelIdeal.Launch
import Idealize.ShloMosaic.Lib.Pipeline.Value

set_option maxRecDepth 16384

noncomputable section

namespace Cert.Lora.MatmulValue

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b)) (c : Dev nD)

/-! ## The three arrays and the blocks of a point -/

/-- The activations, the merged weight and the bias row, as the region finds them. -/
abbrev arrX : S8192x4096.Idx → EReal := V c main_v0
abbrev arrW : S4096x4096.Idx → EReal := V c main_v2
abbrev arrB : S1x4096.Idx → EReal := V c main_v1

/-- The blocks the kernel is handed at point t. -/
abbrev blkX (t : Fin cfg1.N) : S1024x512.Idx → EReal := iblk1 (F := Ideal) V c 0 t
abbrev blkW (t : Fin cfg1.N) : S2048x512.Idx → EReal := iblk1 (F := Ideal) V c 1 t
abbrev blkB (t : Fin cfg1.N) : S1x2048.Idx → EReal := iblk1 (F := Ideal) V c 2 t

/-- The block indices of the four windows at point t, decided over the 128 points: row block t / 16, column block
    (t / 8) mod 2, contraction block t mod 8. -/
theorem blockIndex : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

/-- The activations' block at an entry is the array at (1024 · row block + p, 512 · contraction block + k). -/
theorem blkX_apply (t : Fin cfg1.N) (p : Fin 1024) (k : Fin 512) (r : Fin 8192) (kk : Fin 4096)
    (hr : r.val = 1024 * (t.val / 16) + p.val) (hk : kk.val = 512 * (t.val % 8) + k.val) :
    blkX V c t (ix2 p k) = arrX V c (ix2 r kk) := by
  obtain ⟨e0, e1, -⟩ := blockIndex t
  show V c main_v0 (((cfg1.win 0).blk t).view.emb (ix2 p k)) = V c main_v0 (ix2 r kk)
  congr 1
  funext a; apply Fin.ext
  match a with
  | ⟨0, _⟩ => show win1_0.index t (0 : Fin 2) * 1024 + 1 * p.val = r.val; rw [e0]; omega
  | ⟨1, _⟩ => show win1_0.index t (1 : Fin 2) * 512 + 1 * k.val = kk.val; rw [e1]; omega

/-- The weight's block at an entry is the array at (2048 · column block + q, 512 · contraction block + k). -/
theorem blkW_apply (t : Fin cfg1.N) (q : Fin 2048) (k : Fin 512) (n : Fin 4096) (kk : Fin 4096)
    (hn : n.val = 2048 * (t.val / 8 % 2) + q.val) (hk : kk.val = 512 * (t.val % 8) + k.val) :
    blkW V c t (ix2 q k) = arrW V c (ix2 n kk) := by
  obtain ⟨-, -, e0, e1, -⟩ := blockIndex t
  show V c main_v2 (((cfg1.win 1).blk t).view.emb (ix2 q k)) = V c main_v2 (ix2 n kk)
  congr 1
  funext a; apply Fin.ext
  match a with
  | ⟨0, _⟩ => show win1_1.index t (0 : Fin 2) * 2048 + 1 * q.val = n.val; rw [e0]; omega
  | ⟨1, _⟩ => show win1_1.index t (1 : Fin 2) * 512 + 1 * k.val = kk.val; rw [e1]; omega

/-- The bias row's block at an entry is the row at 2048 · column block + q. -/
theorem blkB_apply (t : Fin cfg1.N) (q : Fin 2048) (n : Fin 4096) (hn : n.val = 2048 * (t.val / 8 % 2) + q.val) :
    blkB V c t (ix2 (0 : Fin 1) q) = arrB V c (ix2 (0 : Fin 1) n) := by
  obtain ⟨-, -, -, -, e0, e1, -⟩ := blockIndex t
  show V c main_v1 (((cfg1.win 2).blk t).view.emb (ix2 (0 : Fin 1) q)) = V c main_v1 (ix2 (0 : Fin 1) n)
  congr 1
  funext a; apply Fin.ext
  match a with
  | ⟨0, _⟩ => show win1_2.index t (0 : Fin 2) * 1 + 1 * 0 = 0; rw [e0]
  | ⟨1, _⟩ => show win1_2.index t (1 : Fin 2) * 2048 + 1 * q.val = n.val; rw [e1]; omega

/-! ## The accumulator, point by point -/

/-- The components of something equal to a given pair. -/
theorem fst_of_eq_pair {α β : Type} {x : α × β} {a : α} {b : β} (h : x = (a, b)) : x.1 = a := by subst h; rfl
theorem snd_of_eq_pair {α β : Type} {x : α × β} {a : α} {b : β} (h : x = (a, b)) : x.2 = b := by subst h; rfl

/-- The partial product of the blocks of the point numbered n, at (p, q) (0 past the grid). -/
def part (p : Fin 1024) (q : Fin 2048) (n : ℕ) : EReal :=
  if h : n < cfg1.N then ∑ k : Fin 512, blkX V c ⟨n, h⟩ (ix2 p k) * blkW V c ⟨n, h⟩ (ix2 q k) else 0

theorem part_of_lt (p : Fin 1024) (q : Fin 2048) (n : ℕ) (h : n < cfg1.N) :
    part V c p q n = ∑ k : Fin 512, blkX V c ⟨n, h⟩ (ix2 p k) * blkW V c ⟨n, h⟩ (ix2 q k) := dif_pos h

/-- What the accumulator holds at (p, q) after the point numbered n. -/
abbrev accAt (p : Fin 1024) (q : Fin 2048) (n : ℕ) (h : n < cfg1.N) : EReal :=
  (outsAt1 (F := Ideal) V c n h).2 (ix2 p q)

/-- At the first contraction block the accumulator is cleared, so it is left at the point's own partial product. -/
theorem accAt_reset (p : Fin 1024) (q : Fin 2048) (n : ℕ) (h : n < cfg1.N) (hn : n % 8 = 0) :
    accAt V c p q n h = part V c p q n := by
  have h1 : ¬n % 8 = 7 := by omega
  have e2 := snd_of_eq_pair (outsAt1_A (F := Ideal) V c ⟨n, h⟩ hn h1)
  refine (congrFun (e2.trans (accA (F := Ideal) V c ⟨n, h⟩ hn h1)) (ix2 p q)).trans ?_
  refine (Cert.Lora.Pay.acc_apply _ _ _ p q).trans ?_
  rw [Cert.Lora.Pay.zero_apply, zero_add, part_of_lt V c p q n h]

/-- At every other point it takes up the point's partial product. -/
theorem accAt_step (p : Fin 1024) (q : Fin 2048) (n : ℕ) (h : n + 1 < cfg1.N) (hn : (n + 1) % 8 ≠ 0) :
    accAt V c p q (n + 1) h = accAt V c p q n (Nat.lt_of_succ_lt h) + part V c p q (n + 1) := by
  rw [part_of_lt V c p q (n + 1) h]
  by_cases h1 : (n + 1) % 8 = 7
  · have e2 := snd_of_eq_pair (outsAt1_C (F := Ideal) V c ⟨n + 1, h⟩ hn h1)
    refine (congrFun (e2.trans (accC (F := Ideal) V c ⟨n + 1, h⟩ hn h1 _)) (ix2 p q)).trans ?_
    exact Cert.Lora.Pay.acc_apply _ _ _ p q
  · have e2 := snd_of_eq_pair (outsAt1_B (F := Ideal) V c ⟨n + 1, h⟩ hn h1)
    refine (congrFun (e2.trans (accB (F := Ideal) V c ⟨n + 1, h⟩ hn h1 _)) (ix2 p q)).trans ?_
    exact Cert.Lora.Pay.acc_apply _ _ _ p q

/-- So after the point 8 j + i, i < 8, it holds the partial products of the points 8 j, …, 8 j + i. -/
theorem accAt_eq_sum (p : Fin 1024) (q : Fin 2048) (j i : ℕ) (hi : i < 8) (h : 8 * j + i < cfg1.N) :
    accAt V c p q (8 * j + i) h = ∑ s : Fin (i + 1), part V c p q (8 * j + s.val) :=
  AccumBlocks.total_eq_sum_fin 8 cfg1.N (fun n h => accAt V c p q n h) (part V c p q)
    (fun n h hn => accAt_reset V c p q n h hn) (fun n h hn => accAt_step V c p q n h hn) j i hi (8 * j + i) h rfl

/-! ## The result block at a point that writes it -/

/-- At the last contraction block the result block is left at the accumulator plus the bias row. -/
theorem resAt_flush (t : Fin cfg1.N) (h1 : t.val % 8 = 7) (p : Fin 1024) (q : Fin 2048) :
    (outsAt1 (F := Ideal) V c t.val t.isLt).1 (ix2 p q) = accAt V c p q t.val t.isLt + blkB V c t (ix2 (0 : Fin 1) q) := by
  have h0 : ¬t.val % 8 = 0 := by omega
  have e1 := fst_of_eq_pair (outsAt1_C (F := Ideal) V c t h0 h1)
  have e2 := snd_of_eq_pair (outsAt1_C (F := Ideal) V c t h0 h1)
  refine (congrFun (e1.trans (resC (F := Ideal) V c t h0 h1 _)) (ix2 p q)).trans ?_
  refine (Cert.Lora.Pay.bias_apply _ _ p q).trans ?_
  exact congrArg (· + blkB V c t (ix2 (0 : Fin 1) q))
    (congrFun (e2.trans (accC (F := Ideal) V c t h0 h1 _)) (ix2 p q)).symm

/-! ## The partial products are the stretches of the whole contraction -/

/-- The partial product of the point 8 j + i is the i-th stretch of 512 terms of the contraction of row
    1024 · (j / 2) + p of the activations with row 2048 · (j mod 2) + q of the weight. -/
theorem part_eq_stretch (p : Fin 1024) (q : Fin 2048) (j : ℕ) (i : Fin 8) (h : 8 * j + i.val < cfg1.N)
    (r : Fin 8192) (n : Fin 4096) (hr : r.val = 1024 * (j / 2) + p.val) (hn : n.val = 2048 * (j % 2) + q.val) :
    part V c p q (8 * j + i.val)
      = ∑ k : Fin 512, arrX V c (ix2 r ⟨512 * i.val + k.val, by have := i.isLt; have := k.isLt; omega⟩)
          * arrW V c (ix2 n ⟨512 * i.val + k.val, by have := i.isLt; have := k.isLt; omega⟩) := by
  have hi : i.val < 8 := i.isLt
  rw [part_of_lt V c p q _ h]
  refine Finset.sum_congr rfl fun k _ => ?_
  exact congrArg₂ (· * ·)
    (blkX_apply V c ⟨8 * j + i.val, h⟩ p k r _ (by show r.val = 1024 * ((8 * j + i.val) / 16) + p.val; omega)
      (by show 512 * i.val + k.val = 512 * ((8 * j + i.val) % 8) + k.val; omega))
    (blkW_apply V c ⟨8 * j + i.val, h⟩ q k n _ (by show n.val = 2048 * ((8 * j + i.val) / 8 % 2) + q.val; omega)
      (by show 512 * i.val + k.val = 512 * ((8 * j + i.val) % 8) + k.val; omega))

/-- The eight stretches of 512 terms make up the contraction over 4096. -/
theorem stretches_eq_contraction (x : S8192x4096.Idx → EReal) (w : S4096x4096.Idx → EReal) (r : Fin 8192) (n : Fin 4096) :
    (∑ s : Fin 8, ∑ k : Fin 512, x (ix2 r ⟨512 * s.val + k.val, by have := s.isLt; have := k.isLt; omega⟩)
        * w (ix2 n ⟨512 * s.val + k.val, by have := s.isLt; have := k.isLt; omega⟩))
      = ∑ kk : Fin 4096, x (ix2 r kk) * w (ix2 n kk) :=
  (BlockSum.sum_eq_sum_blocks 8 512 4096 rfl (fun kk : Fin 4096 => x (ix2 r kk) * w (ix2 n kk))).symm

/-- The accumulator after the last contraction block of a pair of blocks: the whole contraction. -/
theorem accAt_last (p : Fin 1024) (q : Fin 2048) (m : ℕ) (hm : m < cfg1.N) (j : ℕ) (hj : m = 8 * j + 7)
    (r : Fin 8192) (n : Fin 4096) (hr : r.val = 1024 * (j / 2) + p.val) (hn : n.val = 2048 * (j % 2) + q.val) :
    accAt V c p q m hm = ∑ kk : Fin 4096, arrX V c (ix2 r kk) * arrW V c (ix2 n kk) := by
  subst hj
  refine (accAt_eq_sum V c p q j 7 (by omega) hm).trans ?_
  refine Eq.trans ?_ (stretches_eq_contraction (arrX V c) (arrW V c) r n)
  exact Finset.sum_congr rfl fun s _ => part_eq_stretch V c p q j s (by have := s.isLt; omega) r n hr hn

/-- The function the result array ends holding:  (∑ k, x (r, k) · w (n, k)) + b (0, n). -/
abbrev resultFn : S8192x4096.Idx → EReal := fun i =>
  (∑ kk : Fin 4096, arrX V c (ix2 (i 0) kk) * arrW V c (ix2 (i 1) kk)) + arrB V c (ix2 (0 : Fin 1) (i 1))

/-- The result block a writing point leaves, at an entry, is that function at the entry's place in the array. -/
theorem resAt_entry (t : Fin cfg1.N) (h1 : t.val % 8 = 7) (z : S1024x2048.Idx) (i : S8192x4096.Idx)
    (hr : (i 0).val = 1024 * (t.val / 16) + (z 0).val) (hn : (i 1).val = 2048 * (t.val / 8 % 2) + (z 1).val) :
    (outsAt1 (F := Ideal) V c t.val t.isLt).1 z = resultFn V c i := by
  refine (congrArg (outsAt1 (F := Ideal) V c t.val t.isLt).1 (eq_ix2 z)).trans ?_
  refine (resAt_flush V c t h1 (z 0) (z 1)).trans ?_
  exact congrArg₂ (· + ·)
    (accAt_last V c (z 0) (z 1) t.val t.isLt (t.val / 8) (by omega) (i 0) (i 1) (by omega) (by omega))
    (blkB_apply V c t (z 1) (i 1) hn)

/-! ## From the blocks to the array -/

/-- What a writing point writes back is its block of the result function. -/
theorem flushed_eq (t : Fin cfg1.N) (hf : (cfg1.win 3).flush t = true) :
    (dat1 (F := Ideal) V c).flushed 3 t = ((cfg1.win 3).blk t).view.read (Elt Ideal) (resultFn V c) := by
  have h1 : t.val % 8 = 7 := (flush1_3 t).mp hf
  obtain ⟨-, -, -, -, -, -, e0, e1⟩ := blockIndex t
  show (cfg1.win 3).cut (grid1.coords t) ((dat1 (F := Ideal) V c).after 3 t) = _
  rw [after1_3]
  funext y
  rw [View.read_apply]
  refine resAt_entry V c t h1 ((cfg1.win 3).xinj (grid1.coords t) y) (((cfg1.win 3).blk t).view.emb y) ?_ ?_
  · show win1_3.index t (0 : Fin 2) * 1024 + 1 * (y 0).val = 1024 * (t.val / 16) + (y 0).val
    rw [e0]; omega
  · show win1_3.index t (1 : Fin 2) * 2048 + 1 * (y 1).val = 2048 * (t.val / 8 % 2) + (y 1).val
    rw [e1]; omega

/-- An entry of the array is in the result block of point t iff each coordinate is in the block's range. -/
theorem mem_blk (t : Fin cfg1.N) (i : S8192x4096.Idx) :
    i ∈ ((cfg1.win 3).blk t).view.set
      ↔ ∀ a : Fin 2, win1_3.index t a * S1024x2048.size a ≤ (i a).val
          ∧ (i a).val < win1_3.index t a * S1024x2048.size a + S1024x2048.size a := by
  show i ∈ ((View.whole main_v3).slice (win1_3.rect t)).set ↔ _
  rw [View.set_slice_whole, Rect.mem_set_unit]
  exact Iff.rfl

/-- Every entry (r, n) is in the result block of a writing point: the one with row block r / 1024, column block
    n / 2048 and contraction block 7. -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  obtain ⟨tv, htv⟩ : ∃ tv : ℕ, tv = (2 * ((i 0).val / 1024) + (i 1).val / 2048) * 8 + 7 := ⟨_, rfl⟩
  have hlt : tv < cfg1.N := by omega
  refine ⟨⟨tv, hlt⟩, (flush1_3 ⟨tv, hlt⟩).mpr (by show tv % 8 = 7; omega), ?_⟩
  rw [mem_blk]
  obtain ⟨-, -, -, -, -, -, e0, e1⟩ := blockIndex ⟨tv, hlt⟩
  intro a
  match a with
  | ⟨0, _⟩ =>
    show win1_3.index ⟨tv, hlt⟩ (0 : Fin 2) * 1024 ≤ (i 0).val ∧ (i 0).val < win1_3.index ⟨tv, hlt⟩ (0 : Fin 2) * 1024 + 1024
    rw [e0]; show tv / 16 * 1024 ≤ (i 0).val ∧ (i 0).val < tv / 16 * 1024 + 1024; omega
  | ⟨1, _⟩ =>
    show win1_3.index ⟨tv, hlt⟩ (1 : Fin 2) * 2048 ≤ (i 1).val ∧ (i 1).val < win1_3.index ⟨tv, hlt⟩ (1 : Fin 2) * 2048 + 2048
    rw [e1]; show tv / 8 % 2 * 2048 ≤ (i 1).val ∧ (i 1).val < tv / 8 % 2 * 2048 + 2048; omega

/-- So the result array ends holding  (∑ k, x (r, k) · w (n, k)) + b (0, n)  at every (r, n). -/
theorem matmul_array (X : S8192x4096.Idx → EReal) (Wb : S4096x4096.Idx → EReal) (bz : S1x4096.Idx → EReal)
    (hX : X = V c main_v0) (hW : Wb = V c main_v2) (hb : bz = V c main_v1) :
    (Cert.KernelIdeal.Hand.dat1 (F := Ideal) V c).arrAt 3 cfg1.N
      = fun i : S8192x4096.Idx => (∑ k : Fin 4096, X (ix2 (i 0) k) * Wb (ix2 (i 1) k)) + bz (ix2 (0 : Fin 1) (i 1)) := by
  subst hX hW hb
  exact (dat1 (F := Ideal) V c).arrAt_eq_of_cover 3 (resultFn V c) (flushed_eq V c) covered

end Cert.Lora.MatmulValue

end
-- ==== Proof.LibRowsLinear.lean ====
/-
  A linear layer over a batch of rows, in two layouts.

  An array `x` of extents `[A, B, K]` (a batch of `A·B` rows of length `K`) against a weight matrix `w` of
  extents `[N, K]` gives `y (a, b, o) = ∑ k, x (a, b, k) · w (o, k)`. The same numbers are obtained by first
  flattening the two leading axes of `x` into `M = A·B` rows, taking all row-by-row products
  `z (r, o) = ∑ k, x' (r, k) · w (o, k)`, and splitting the row axis of `z` again: row `r = a·B + b` of the
  flattened array is row `(a, b)` of `x`. Nothing is asked of the entries: each entry of the result is the
  same finite sum of the same products, so the statement holds over any additive commutative monoid with
  a product; it is stated on the extended reals.

  Also here: the two reshapes read at an index, for any extents.
-/
import Idealize.ShloMosaic.Lib.Pipeline.Value
import Idealize.ShloMosaic.Lib.ValueIdx

noncomputable section

namespace Cert.RowsLinear

open Idealize.ShloMosaic Idealize.ShloMosaic.ValueIdx
open scoped BigOperators

variable {α : Type} {A B C M : Nat}

/-- An `[A, B, C]` array reshaped to `[M, C]` (`M = A·B`) reads, at `(r, k)` with `r = a·B + b`, the operand at
    `(a, b, k)`: the two indices have the same row-major position. -/
theorem flatten_apply (x : (⟨3, ![A, B, C]⟩ : Shape).Idx → α)
    (h : (⟨3, ![A, B, C]⟩ : Shape).ShapeCasts ⟨2, ![M, C]⟩) (a : Fin A) (b : Fin B) (k : Fin C) (r : Fin M)
    (hr : r.val = a.val * B + b.val) :
    shapeCast ⟨2, ![M, C]⟩ x h (ix2 r k) = x (ix3 a b k) :=
  shapeCast_apply x h _ _ (by
    rw [Shape.rowMajor_val_three, Shape.rowMajor_val_two]
    show (a.val * B + b.val) * C + k.val = r.val * C + k.val
    rw [hr])

/-- An `[M, C]` array (`M = A·B`) reshaped to `[A, B, C]` reads, at `(a, b, k)`, the operand at `(a·B + b, k)`. -/
theorem split_apply (x : (⟨2, ![M, C]⟩ : Shape).Idx → α)
    (h : (⟨2, ![M, C]⟩ : Shape).ShapeCasts ⟨3, ![A, B, C]⟩) (a : Fin A) (b : Fin B) (k : Fin C) (r : Fin M)
    (hr : r.val = a.val * B + b.val) :
    shapeCast ⟨3, ![A, B, C]⟩ x h (ix3 a b k) = x (ix2 r k) :=
  shapeCast_apply x h _ _ (by
    rw [Shape.rowMajor_val_three, Shape.rowMajor_val_two]
    show r.val * C + k.val = (a.val * B + b.val) * C + k.val
    rw [hr])

variable {K N : Nat}

/-- All products of a row of `xs` with a row of `w`: `z (r, o) = ∑ k, xs (r, k) · w (o, k)`. -/
def rowsProd (xs : (⟨2, ![M, K]⟩ : Shape).Idx → EReal) (w : (⟨2, ![N, K]⟩ : Shape).Idx → EReal) :
    (⟨2, ![M, N]⟩ : Shape).Idx → EReal :=
  fun i => ∑ k : Fin K, xs (ix2 (i 0) k) * w (ix2 (i 1) k)

/-- The linear layer on a batch: `y (a, b, o) = ∑ k, x (a, b, k) · w (o, k)`. -/
def linear (x : (⟨3, ![A, B, K]⟩ : Shape).Idx → EReal) (w : (⟨2, ![N, K]⟩ : Shape).Idx → EReal) :
    (⟨3, ![A, B, N]⟩ : Shape).Idx → EReal :=
  fun i => ∑ k : Fin K, x (ix3 (i 0) (i 1) k) * w (ix2 (i 2) k)

/-- Flattening the batch, multiplying rows by rows and splitting the row axis again is the linear layer on the
    batch: entry `(a, b, o)` of the split array is entry `(a·B + b, o)` of the products, whose left factors are row
    `a·B + b` of the flattened batch, that is row `(a, b)` of `x`. -/
theorem split_rowsProd_flatten (hM : M = A * B) (x : (⟨3, ![A, B, K]⟩ : Shape).Idx → EReal)
    (w : (⟨2, ![N, K]⟩ : Shape).Idx → EReal)
    (h1 : (⟨3, ![A, B, K]⟩ : Shape).ShapeCasts ⟨2, ![M, K]⟩)
    (h2 : (⟨2, ![M, N]⟩ : Shape).ShapeCasts ⟨3, ![A, B, N]⟩) :
    shapeCast ⟨3, ![A, B, N]⟩ (rowsProd (shapeCast ⟨2, ![M, K]⟩ x h1) w) h2 = linear x w := by
  funext i
  obtain ⟨a, b, o, rfl⟩ : ∃ (a : Fin A) (b : Fin B) (o : Fin N), i = ix3 a b o := ⟨i 0, i 1, i 2, eq_ix3 i⟩
  have hlt : a.val * B + b.val < M := by
    rw [hM]
    calc a.val * B + b.val < a.val * B + B := Nat.add_lt_add_left b.isLt _
      _ = (a.val + 1) * B := by rw [Nat.add_mul, Nat.one_mul]
      _ ≤ A * B := Nat.mul_le_mul_right B a.isLt
  rw [split_apply _ h2 a b o ⟨a.val * B + b.val, hlt⟩ rfl]
  unfold rowsProd linear
  refine Finset.sum_congr rfl fun k _ => ?_
  show shapeCast ⟨2, ![M, K]⟩ x h1 (ix2 ⟨a.val * B + b.val, hlt⟩ k) * w (ix2 o k) = x (ix3 a b k) * w (ix2 o k)
  rw [flatten_apply x h1 a b k ⟨a.val * B + b.val, hlt⟩ rfl]

end Cert.RowsLinear

end
-- ==== Proof.KernelValue.lean ====
/-
  The idealized kernel's result, as one function of the five argument arrays: it is `merged`.

  The first host stretch flattens the activations [4, 2048, 4096] to [8192, 4096] rows and makes the bias a [1, 4096] row;
  the merge region's result array is the merged weight, entry by entry; the matmul region's result array has, at (r, n),
  the row r of the flattened activations against row n of the merged weight, plus the bias at n; the last reshape splits
  the row axis again. Row r = 2048·a + b of the flattened activations is row (a, b) of the activations, so the result at
  (a, b, n) is `(∑ k, x[a, b, k] · weff[n, k]) + bias[n]`.
-/
import proofs.«141827_j21225728377224_2_alg».proof.Proof.HandKernelIdeal.Run
import proofs.«141827_j21225728377224_2_alg».proof.Proof.Value0
import proofs.«141827_j21225728377224_2_alg».proof.Proof.Value1
import proofs.«141827_j21225728377224_2_alg».proof.Proof.LibRowsLinear
import proofs.«141827_j21225728377224_2_alg».proof.Proof.Spec
import Idealize.ShloMosaic.Lib.ValueLayout
import Idealize.ShloMosaic.Lib.StableHlo.Run

set_option maxRecDepth 16384

noncomputable section

namespace Cert.Lora.KVal

open Cert.KernelIdeal Cert.KernelIdeal.Gen Cert.KernelIdeal.Hand
open Cert.Lora.MergeValue (merge_array)
open Cert.Lora.MatmulValue (matmul_array)
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! ## The host stretches -/

/-- The flattened activations. -/
theorem W1_main_v0 (c : Dev nD) :
    (W1 m ρ c (Proc.devRef .tc main_v0) : S8192x4096.Idx → EReal)
      = shapeCast S8192x4096 (m ((c : Thread nD τ).loc main_arg0)) shapeCasts_S4x2048x4096_S8192x4096 := by
  dsimp only [W1, hostOps0]; after_results; rfl

/-- The bias as a one-row matrix. -/
theorem W1_main_v1 (c : Dev nD) :
    (W1 m ρ c (Proc.devRef .tc main_v1) : S1x4096.Idx → EReal)
      = shapeCast S1x4096 (m ((c : Thread nD τ).loc main_arg2)) shapeCasts_S4096_S1x4096 := by
  dsimp only [W1, hostOps0]; after_results; rfl

/-- The result: the matmul region's result array with its row axis split. -/
theorem W4_main_v4 (c : Dev nD) :
    (W4 m ρ c (Proc.devRef .tc main_v4) : S4x2048x4096.Idx → EReal)
      = shapeCast S4x2048x4096 (W3 m ρ c (Proc.devRef .tc main_v3)) shapeCasts_S8192x4096_S4x2048x4096 := by
  dsimp only [W4, hostOps2]; after_results; rfl

/-! ## The buffers the matmul region reads -/

theorem V2_main_v0 (c : Dev nD) : V2 m ρ c main_v0 = W1 m ρ c (Proc.devRef .tc main_v0) :=
  W2_of_ne m ρ c main_v0 (by decide)
theorem V2_main_v1 (c : Dev nD) : V2 m ρ c main_v1 = W1 m ρ c (Proc.devRef .tc main_v1) :=
  W2_of_ne m ρ c main_v1 (by decide)
/-- The merged weight, entry by entry. -/
theorem V2_main_v2 (c : Dev nD) :
    V2 m ρ c main_v2 = fun i : S4096x4096.Idx =>
      Cert.Lora.weff (m ((c : Thread nD τ).loc main_arg1)) (m ((c : Thread nD τ).loc main_arg3)) (m ((c : Thread nD τ).loc main_arg4)) (i 0) (i 1) := by
  have e : V2 m ρ c main_v2 = (dat0 (V1 m ρ) c).arrAt 3 cfg0.N := W2_arr m ρ c 3
  rw [e, merge_array (V1 m ρ) c]
  show (fun i : S4096x4096.Idx => Cert.Lora.weff (W1 m ρ c (Proc.devRef .tc main_arg1)) (W1 m ρ c (Proc.devRef .tc main_arg3)) (W1 m ρ c (Proc.devRef .tc main_arg4)) (i 0) (i 1)) = _
  rw [W1_keep m ρ c main_arg1 (by decide), W1_keep m ρ c main_arg3 (by decide), W1_keep m ρ c main_arg4 (by decide)]

/-! ## The result -/

/-- The matmul region's result array, at row `r = 2048·a + b` and column `n`. -/
theorem rows_entry (c : Dev nD) (a : Fin 4) (b : Fin 2048) (n : Fin 4096) (r : Fin 8192) (hr : r.val = a.val * 2048 + b.val) :
    (W3 m ρ c (Proc.devRef .tc main_v3) : S8192x4096.Idx → EReal) (ix2 r n)
      = Cert.Lora.merged (m ((c : Thread nD τ).loc main_arg0)) (m ((c : Thread nD τ).loc main_arg1)) (m ((c : Thread nD τ).loc main_arg2))
          (m ((c : Thread nD τ).loc main_arg3)) (m ((c : Thread nD τ).loc main_arg4)) (ix3 a b n) := by
  have e3 : W3 m ρ c (Proc.devRef .tc main_v3) = (dat1 (V2 m ρ) c).arrAt 3 cfg1.N := W3_arr m ρ c 3
  rw [e3, matmul_array (V2 m ρ) c (V2 m ρ c main_v0) (V2 m ρ c main_v2) (V2 m ρ c main_v1) rfl rfl rfl]
  have hx : ∀ k : Fin 4096, (V2 m ρ c main_v0 : S8192x4096.Idx → EReal) (ix2 r k) = m ((c : Thread nD τ).loc main_arg0) (ix3 a b k) := fun k => by
    rw [V2_main_v0, W1_main_v0]
    exact Cert.RowsLinear.flatten_apply _ _ a b k r hr
  have hw : ∀ k : Fin 4096, (V2 m ρ c main_v2 : S4096x4096.Idx → EReal) (ix2 n k)
      = Cert.Lora.weff (m ((c : Thread nD τ).loc main_arg1)) (m ((c : Thread nD τ).loc main_arg3)) (m ((c : Thread nD τ).loc main_arg4)) n k := fun k => by
    rw [V2_main_v2]
  have hb : (V2 m ρ c main_v1 : S1x4096.Idx → EReal) (ix2 (0 : Fin 1) n) = m ((c : Thread nD τ).loc main_arg2) (ix1 n) := by
    rw [V2_main_v1, W1_main_v1]
    exact shapeCast_a_1a_apply _ _ (0 : Fin 1) n
  exact congrArg₂ (· + ·) (Finset.sum_congr rfl fun k _ => congrArg₂ (· * ·) (hx k) (hw k)) hb

/-- The idealized kernel's result array is `merged` of the argument arrays. -/
theorem result_eq (c : Dev nD) :
    (W4 m ρ c (Proc.devRef .tc main_v4) : S4x2048x4096.Idx → EReal)
      = Cert.Lora.merged (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨a, b, n, rfl⟩ : ∃ (a : Fin 4) (b : Fin 2048) (n : Fin 4096), i = ix3 a b n := ⟨i 0, i 1, i 2, eq_ix3 i⟩
  have hlt : a.val * 2048 + b.val < 8192 := by have := a.isLt; have := b.isLt; omega
  rw [W4_main_v4]
  exact (Cert.RowsLinear.split_apply _ _ a b n ⟨a.val * 2048 + b.val, hlt⟩ rfl).trans (rows_entry m ρ c a b n ⟨a.val * 2048 + b.val, hlt⟩ rfl)

/-- The idealized kernel's run, read: the result at `merged` of the arguments, the arguments unchanged. -/
theorem run : θ_run defs (onTc (τ := τ) (main (F := Ideal))) ⟨m, fun _ => 0, ρ⟩ (fun r => ∀ c : Dev nD,
      r.2.mem ((c.tc : Thread nD τ).loc main_v4) = Cert.Lora.merged (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (Cert.KernelIdeal.Hand.run m ρ)

end Cert.Lora.KVal

end
-- ==== Proof.Law.lean ====
/-
  Distributivity of the linear layer over its low-rank update, at real entries.

  For real numbers, and for any finite index types,
    (∑ k, x k · (w k + u k)) + b = ((∑ k, x k · w k) + b) + ∑ k, x k · u k
  by distributing the product over the sum inside and splitting the finite sum. On the extended reals
  multiplication does not distribute over addition in general (an infinite factor against a sum of opposite
  signs), so the identity is proved over ℝ and carried to the extended reals through the coercion, which commutes
  with products, sums of two terms and finite sums. With u k = ∑ r, a r · B r k this is the equality of the two
  arrangements `merged` and `split` of the layer wherever every entry of the five arrays is a real number.
-/
import Mathlib
import Idealize.ShloMosaic.PureOps.Ideal
import proofs.«141827_j21225728377224_2_alg».proof.Proof.Spec

noncomputable section

namespace Cert.Lora

open Idealize.ShloMosaic Idealize.ShloMosaic.ValueIdx
open scoped BigOperators

/-- The coercion of the reals into the extended reals commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: distribute, then split the sum. -/
theorem law_real {κ ρ : Type*} [Fintype κ] [Fintype ρ] (x w : κ → ℝ) (b : ℝ) (a : ρ → ℝ) (c : ρ → κ → ℝ) :
    (∑ k, x k * (w k + ∑ r, a r * c r k)) + b
      = ((∑ k, x k * w k) + b) + ∑ k, x k * ∑ r, a r * c r k := by
  simp only [mul_add, Finset.sum_add_distrib]
  abel

/-- The identity on the extended reals at coerced real entries. -/
theorem law_coe {κ ρ : Type*} [Fintype κ] [Fintype ρ] (x w : κ → ℝ) (b : ℝ) (a : ρ → ℝ) (c : ρ → κ → ℝ) :
    (∑ k, (x k : EReal) * ((w k : EReal) + ∑ r, (a r : EReal) * (c r k : EReal))) + (b : EReal)
      = ((∑ k, (x k : EReal) * (w k : EReal)) + (b : EReal))
          + ∑ k, (x k : EReal) * ∑ r, (a r : EReal) * (c r k : EReal) := by
  simp only [← EReal.coe_mul, ← coe_finsum, ← EReal.coe_add]
  exact congrArg _ (law_real x w b a c)

/-- The identity on the extended reals for entries known to be real. -/
theorem law_of_real {κ ρ : Type*} [Fintype κ] [Fintype ρ] (x w : κ → EReal) (b : EReal) (a : ρ → EReal)
    (c : ρ → κ → EReal)
    (hx : ∀ k, ∃ r : ℝ, x k = (r : EReal)) (hw : ∀ k, ∃ r : ℝ, w k = (r : EReal)) (hb : ∃ r : ℝ, b = (r : EReal))
    (ha : ∀ j, ∃ r : ℝ, a j = (r : EReal)) (hc : ∀ j k, ∃ r : ℝ, c j k = (r : EReal)) :
    (∑ k, x k * (w k + ∑ r, a r * c r k)) + b
      = ((∑ k, x k * w k) + b) + ∑ k, x k * ∑ r, a r * c r k := by
  choose x' hx' using hx
  choose w' hw' using hw
  obtain ⟨b', rfl⟩ := hb
  choose a' ha' using ha
  choose c' hc' using hc
  obtain rfl : x = fun k => (x' k : EReal) := funext hx'
  obtain rfl : w = fun k => (w' k : EReal) := funext hw'
  obtain rfl : a = fun j => (a' j : EReal) := funext ha'
  obtain rfl : c = fun j k => (c' j k : EReal) := funext fun j => funext fun k => hc' j k
  exact law_coe x' w' b' a' c'

/-- The two arrangements of the layer agree wherever every entry of the five arrays is a real number. -/
theorem merged_eq_split (x : SX.Idx → EReal) (W : SW.Idx → EReal) (bias : SBias.Idx → EReal)
    (A : SA.Idx → EReal) (B : SB.Idx → EReal)
    (hx : ∀ j, ∃ r : ℝ, x j = (r : EReal)) (hW : ∀ j, ∃ r : ℝ, W j = (r : EReal))
    (hb : ∀ j, ∃ r : ℝ, bias j = (r : EReal))
    (hA : ∀ j, ∃ r : ℝ, A j = (r : EReal)) (hB : ∀ j, ∃ r : ℝ, B j = (r : EReal)) :
    merged x W bias A B = split x W bias A B :=
  funext fun i =>
    law_of_real (fun k : Fin 4096 => x (ix3 (i 0) (i 1) k)) (fun k : Fin 4096 => W (ix2 (i 2) k))
      (bias (ix1 (i 2))) (fun r : Fin 16 => A (ix2 (i 2) r)) (fun (r : Fin 16) (k : Fin 4096) => B (ix2 r k))
      (fun k => hx _) (fun k => hW _) (hb _) (fun r => hA _) (fun r k => hB _)

end Cert.Lora

end
-- ==== Proof.RefSide.lean ====
/-
  The reference program is the arrangement `split`.

  The reference computes, one operation at a time: the update `A · B` (a contraction over the rank index), the
  dense product of the activations with the weight (a contraction over `k`), the bias broadcast along the two
  leading axes and added, the product of the activations with the update (a contraction over `k`), and the sum of
  the two. Reading its result at an index `i = (b, s, n)` through these operations gives
    ((∑ k, x[b, s, k] · W[n, k]) + bias[n]) + ∑ k, x[b, s, k] · (∑ r, A[n, r] · B[r, k]),
  which is `split` at `i`; the only work is identifying each operation's index functions with the coordinate
  constructors `ix1`, `ix2`, `ix3`.
-/
import proofs.«141827_j21225728377224_2_alg».proof.Proof.Gen.ReferenceIdeal.Read
import proofs.«141827_j21225728377224_2_alg».proof.Proof.Spec

noncomputable section

namespace Cert.Lora

open Idealize.ShloMosaic Idealize.ShloMosaic.ValueIdx
open Cert.ReferenceIdeal
open scoped BigOperators

/-- The dense product reads the activations at `(b, s, k)`. -/
theorem lidx_v1_eq (i : SX.Idx) (k : Fin 4096) : Read.lidx_main_v1 i k = ix3 (i 0) (i 1) k :=
  funext fun a => Fin.ext (by match a with | ⟨0, _⟩ => rfl | ⟨1, _⟩ => rfl | ⟨2, _⟩ => rfl)

/-- The dense product reads the weight at `(n, k)`. -/
theorem ridx_v1_eq (i : SX.Idx) (k : Fin 4096) : Read.ridx_main_v1 i k = ix2 (i 2) k :=
  funext fun a => Fin.ext (by match a with | ⟨0, _⟩ => rfl | ⟨1, _⟩ => rfl)

/-- The update product reads the activations at `(b, s, k)`. -/
theorem lidx_v5_eq (i : SX.Idx) (k : Fin 4096) : Read.lidx_main_v5 i k = ix3 (i 0) (i 1) k :=
  funext fun a => Fin.ext (by match a with | ⟨0, _⟩ => rfl | ⟨1, _⟩ => rfl | ⟨2, _⟩ => rfl)

/-- The update product reads the update at `(n, k)`. -/
theorem ridx_v5_eq (i : SX.Idx) (k : Fin 4096) : Read.ridx_main_v5 i k = ix2 (i 2) k :=
  funext fun a => Fin.ext (by match a with | ⟨0, _⟩ => rfl | ⟨1, _⟩ => rfl)

/-- The update at `(n, k)` reads the first factor at `(n, r)`. -/
theorem lidx_v0_eq (n k : Fin 4096) (r : Fin 16) : Read.lidx_main_v0 (ix2 n k) r = ix2 n r :=
  funext fun a => Fin.ext (by match a with | ⟨0, _⟩ => rfl | ⟨1, _⟩ => rfl)

/-- The update at `(n, k)` reads the second factor at `(r, k)`. -/
theorem ridx_v0_eq (n k : Fin 4096) (r : Fin 16) : Read.ridx_main_v0 (ix2 n k) r = ix2 r k :=
  funext fun a => Fin.ext (by match a with | ⟨0, _⟩ => rfl | ⟨1, _⟩ => rfl)

/-- The broadcast bias at `(b, s, n)` reads the bias at `n`. -/
theorem idx_v2_v3_eq (i : SX.Idx) : Read.idx_main_v2 (Read.idx_main_v3 i) = ix1 (i 2) :=
  funext fun a => Fin.ext (by match a with | ⟨0, _⟩ => rfl)

/-- The reference's update operation at `(n, k)` is `update`. -/
theorem ref_update (x3 : SA.Idx → EReal) (x4 : SB.Idx → EReal) (n k : Fin 4096) :
    Read.val_main_v0 (F := Ideal) x3 x4 (ix2 n k) = update x3 x4 n k := by
  rw [Read.val_main_v0_apply]
  exact Finset.sum_congr rfl fun r _ =>
    congrArg₂ (· * ·) (congrArg x3 (lidx_v0_eq n k r)) (congrArg x4 (ridx_v0_eq n k r))

/-- The reference's result is `split` of its five arguments. -/
theorem ref_is_split (x0 : SX.Idx → EReal) (x1 : SW.Idx → EReal) (x2 : SBias.Idx → EReal) (x3 : SA.Idx → EReal)
    (x4 : SB.Idx → EReal) :
    Read.val_main_v6 (F := Ideal) x0 x1 x2 x3 x4 = split x0 x1 x2 x3 x4 := by
  funext i
  rw [Read.val_main_v6_apply, Read.val_main_v4_apply, Read.val_main_v1_apply, Read.val_main_v3_apply,
    Read.val_main_v2_apply, Read.val_main_v5_apply, Ideal.addf_def, Ideal.addf_def]
  refine congrArg₂ (· + ·) (congrArg₂ (· + ·) ?_ (congrArg x2 (idx_v2_v3_eq i))) ?_
  · exact Finset.sum_congr rfl fun k _ =>
      congrArg₂ (· * ·) (congrArg x0 (lidx_v1_eq i k)) (congrArg x1 (ridx_v1_eq i k))
  · exact Finset.sum_congr rfl fun k _ =>
      congrArg₂ (· * ·) (congrArg x0 (lidx_v5_eq i k))
        ((congrArg (Read.val_main_v0 (F := Ideal) x3 x4) (ridx_v5_eq i k)).trans (ref_update x3 x4 (i 2) k))

end Cert.Lora

end
-- ==== Proof.Finite.lean ====
/-
  From the printed precondition to "every entry is a real number".

  The precondition is the conjunction, over the five argument arrays, of "every entry `v` has `|v| < +∞`": for
  each array a comparison of `|v|` (the greater of `v` and `-v`) with the constant whose bit pattern is that of
  `+∞`, reduced by `and` over every axis from the initial value 1, and the five results joined by `and`. If the
  whole is 1 then each of the five reductions is 1, so every compared entry gives 1, that is `max v (-v) < ⊤` on
  the extended reals; this excludes `v = ⊤` and `v = ⊥` (for both, `max v (-v) = ⊤`), and what remains of the
  extended reals are the real numbers.
-/
import proofs.«141827_j21225728377224_2_alg».proof.Pre_finite_inputs
import proofs.«141827_j21225728377224_2_alg».proof.Proof.Gen.Pre_finite_inputs
import Idealize.ShloMosaic.Lib.ReduceAll
import proofs.«141827_j21225728377224_2_alg».proof.Proof.Spec

noncomputable section

namespace Cert.Lora

open Idealize.ShloMosaic Idealize.ShloMosaic.ValueIdx

/-- One value: if the comparison `|v| < +∞` gives 1 then `v` is a real number. -/
theorem real_of_finite_elt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array of any shape: if the reduction by `and`, over every axis, of the comparisons `|v| < +∞` gives 1,
    then every entry of the array is a real number. -/
theorem real_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (init : Cert.Pre_finite_inputs.S_.Idx → BitVec 1) (j : Cert.Pre_finite_inputs.S_.Idx)
    (e : Host.reduce IntOp.andi
          (cmpf (F := Ideal) (φ := .f32) .olt (Host.absf (F := Ideal) (φ := .f32) x)
            (broadcastInDim s ![] hb (constant (F := Ideal) Cert.Pre_finite_inputs.S_ .f32 0x7F800000#32)))
          init hr hu j = 1#1) (i : s.Idx) : ∃ r : ℝ, x i = (r : EReal) := by
  -- the scalar shape has exactly one index
  haveI : Subsingleton Cert.Pre_finite_inputs.S_.Idx := ⟨fun a b => funext fun d => d.elim0⟩
  exact real_of_finite_elt (x i) (Host.reduce_andi_all _ init hr hu j e i)

/-- The precondition gives: every entry of each of the five argument arrays is a real number. -/
theorem real_of_pre [Cert.Pre_finite_inputs.Facts] (x0 : SX.Idx → EReal) (x1 : SW.Idx → EReal)
    (x2 : SBias.Idx → EReal) (x3 : SA.Idx → EReal) (x4 : SB.Idx → EReal)
    (h : Cert.Pre_finite_inputs.fn (F := Ideal) x0 x1 x2 x3 x4 = fun _ => 1#1) :
    (∀ j, ∃ r : ℝ, x0 j = (r : EReal)) ∧ (∀ j, ∃ r : ℝ, x1 j = (r : EReal)) ∧ (∀ j, ∃ r : ℝ, x2 j = (r : EReal))
      ∧ (∀ j, ∃ r : ℝ, x3 j = (r : EReal)) ∧ (∀ j, ∃ r : ℝ, x4 j = (r : EReal)) := by
  have h0 := congrFun h ValueIdx.ix0
  dsimp only [Cert.Pre_finite_inputs.fn, Cert.Pre_finite_inputs.fn_part1] at h0
  -- at the one index, the array `and` is the `and` of the five reductions' values
  change IntOp.andi (IntOp.andi (IntOp.andi (IntOp.andi _ _) _) _) _ = 1#1 at h0
  rw [IntOp.andi_eq_one, IntOp.andi_eq_one, IntOp.andi_eq_one, IntOp.andi_eq_one] at h0
  obtain ⟨⟨⟨⟨e0, e1⟩, e2⟩, e3⟩, e4⟩ := h0
  exact ⟨real_of_all x0 _ _ _ _ _ e0, real_of_all x1 _ _ _ _ _ e1, real_of_all x2 _ _ _ _ _ e2,
    real_of_all x3 _ _ _ _ _ e3, real_of_all x4 _ _ _ _ _ e4⟩

end Cert.Lora

end
-- ==== Proof.RefMerged.lean ====
/-
  Under the precondition, the reference program is the arrangement `merged`.

  The reference's result is `split` of its five arguments; the precondition makes every entry of the five arrays
  a real number; and at real entries `split` and `merged` agree by distributivity.
-/
import proofs.«141827_j21225728377224_2_alg».proof.Proof.Law
import proofs.«141827_j21225728377224_2_alg».proof.Proof.RefSide
import proofs.«141827_j21225728377224_2_alg».proof.Proof.Finite

noncomputable section

namespace Cert.Lora

open Idealize.ShloMosaic Idealize.ShloMosaic.ValueIdx

/-- Under the precondition, the reference's result is `merged` of its five arguments. -/
theorem ref_is_merged [Cert.Pre_finite_inputs.Facts] (x0 : SX.Idx → EReal) (x1 : SW.Idx → EReal)
    (x2 : SBias.Idx → EReal) (x3 : SA.Idx → EReal) (x4 : SB.Idx → EReal)
    (h : Cert.Pre_finite_inputs.fn (F := Ideal) x0 x1 x2 x3 x4 = fun _ => 1#1) :
    Cert.ReferenceIdeal.Read.val_main_v6 (F := Ideal) x0 x1 x2 x3 x4 = merged x0 x1 x2 x3 x4 := by
  obtain ⟨h0, h1, h2, h3, h4⟩ := real_of_pre x0 x1 x2 x3 x4 h
  rw [ref_is_split]
  exact (merged_eq_split x0 x1 x2 x3 x4 h0 h1 h2 h3 h4).symm

end Cert.Lora

end
-- ==== Proof.lean ====
/-
  A linear layer with a rank-16 update: the kernel against its reference, on the extended reals.

  The kernel merges the update into the weight first — a region computing `W[n, k] + ∑ r, A[n, r] · B[r, k]`, narrowed to
  bf16, which on the extended reals changes nothing — and then multiplies: a region that, over the 8 blocks of the
  contracted axis, accumulates `x · weffᵀ` in a scratch buffer from zero and adds the bias once, at the last block. So
  its result at (b, s, n) is `(∑ k, x[b, s, k] · (W[n, k] + ∑ r, A[n, r] · B[r, k])) + bias[n]` (`Cert.Lora.merged`): a sum
  taken block by block is the sum, and `0 + s = s`, for any entries. The reference computes
  `((∑ k, x[b, s, k] · W[n, k]) + bias[n]) + ∑ k, x[b, s, k] · (∑ r, A[n, r] · B[r, k])` (`Cert.Lora.split`). The two agree by
  distributivity, which on the extended reals needs the entries to be real numbers: that is what the precondition
  (every input finite) gives.

  * The frames of the word-level kernel and of its idealization: the run of @main as four segments — host reshapes, the
    merge region, the matmul region, a host reshape — each region entered from and left at "every unscoped buffer at
    known contents" (Proof/HandKernel/Run.lean, Proof/HandKernelIdeal/Run.lean: the same text at the two instances).
  * The reference's frame: its run with the result dropped.
  * `preserves`: the idealization rewrote nothing.
  * `algebraic`: the kernel's run read at the ideal instance ends at `merged` of the arguments (Proof/KernelValue.lean),
    the reference's at `split`, which under the precondition is `merged` (Proof/RefMerged.lean).
-/
import proofs.«141827_j21225728377224_2_alg».proof.Defs
import proofs.«141827_j21225728377224_2_alg».proof.Proof.Gen.Kernel
import proofs.«141827_j21225728377224_2_alg».proof.Proof.Gen.KernelIdeal
import proofs.«141827_j21225728377224_2_alg».proof.Proof.Gen.ReferenceIdeal
import proofs.«141827_j21225728377224_2_alg».proof.Proof.Gen.Pre_finite_inputs
import proofs.«141827_j21225728377224_2_alg».proof.Proof.Gen.ReferenceIdeal.Run
import proofs.«141827_j21225728377224_2_alg».proof.Proof.Gen.ReferenceIdeal.Read
import proofs.«141827_j21225728377224_2_alg».proof.Proof.HandKernel.Run
import proofs.«141827_j21225728377224_2_alg».proof.Proof.HandKernelIdeal.Run
import proofs.«141827_j21225728377224_2_alg».proof.Proof.KernelValue
import proofs.«141827_j21225728377224_2_alg».proof.Proof.RefMerged
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `merged` of the (agreeing) arguments: the kernel's by its value, the reference's because under the
    precondition its `split` is `merged`. -/
theorem algebraic : Cert.algebraic_KernelIdeal_ReferenceIdeal := by
  intro m ρ m' ρ' hpre hagree
  refine ⟨fun c => Cert.Lora.merged (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.Lora.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2.1, (hagree c).2.2.2.2]
  exact Cert.Lora.ref_is_merged _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
